-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072x1 : Shape := ⟨2, ![131072, 1]⟩
abbrev S64 : Shape := ⟨1, ![64]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S512x2 .f32) (main_arg6 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2 .f32 := Host.absf main_arg5
  let main_cst_6 : FVec F S_ .f32 := constant S_ .f32 0x7F800000#32
  let main_v20 : FVec F S512x2 .f32 := broadcastInDim S512x2 ![] bcast_S_S512x2 main_cst_6
  let main_v21 : IVec S512x2 1 := cmpf .olt main_v19 main_v20
  let main_c_7 : IVec S_ 1 := constantI S_ 1 1#1
  let main_v22 : IVec S_ 1 := (fun x v => Host.reduce IntOp.andi x v reducesTo_S512x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S131072x1024 .f32) (main_arg1 : FVec F S131072x1 .f32) (main_arg2 : IVec S64 32) (main_arg3 : FVec F S1024x512 .f32) (main_arg4 : FVec F S512 .f32) (main_arg5 : FVec F S512x2 .f32) (main_arg6 : FVec F S2 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x1 .f32 := Host.absf main_arg1
  let main_cst_0 : FVec F S_ .f32 := constant S_ .f32 0x7F800000#32
  let main_v5 : FVec F S131072x1 .f32 := broadcastInDim S131072x1 ![] bcast_S_S131072x1 main_cst_0
  let main_v6 : IVec S131072x1 1 := cmpf .olt main_v4 main_v5
  let main_c_1 : IVec S_ 1 := constantI S_ 1 1#1
  let main_v7 : IVec S_ 1 := (fun x v => Host.reduce IntOp.andi x v reducesTo_S131072x1_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S131072x1024 : Shape := ⟨2, ![131072, 1024]⟩
abbrev S131072x1 : Shape := ⟨2, ![131072, 1]⟩
abbrev S64 : Shape := ⟨1, ![64]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S131072x2 : Shape := ⟨2, ![131072, 2]⟩
abbrev S2048x1024 : Shape := ⟨2, ![2048, 1024]⟩
abbrev S2048x1 : Shape := ⟨2, ![2048, 1]⟩
abbrev S2048x2 : Shape := ⟨2, ![2048, 2]⟩
abbrev S2048x512 : Shape := ⟨2, ![2048, 512]⟩
abbrev S1x512 : Shape := ⟨2, ![1, 512]⟩
abbrev S1x2 : Shape := ⟨2, ![1, 2]⟩
abbrev S1 : Shape := ⟨1, ![1]⟩
abbrev S63 : Shape := ⟨1, ![63]⟩
abbrev S_ : Shape := ⟨0, ![]⟩
abbrev S131072 : Shape := ⟨1, ![131072]⟩
abbrev S64x1 : Shape := ⟨2, ![64, 1]⟩
abbrev S1x1 : Shape := ⟨2, ![1, 1]⟩
abbrev S64x2 : Shape := ⟨2, ![64, 2]⟩

abbrev nBuf : Space → Nat
  | .hbm => 66
  | .vmem => 10
  | .smem => 0
  | _ => 0

abbrev bufTy : (tb : Table) → Fin (tcTables nBuf tb) → BufTy
  | .hbm, ⟨0, _⟩ => ⟨S131072x1024, .f32⟩
  | .hbm, ⟨1, _⟩ => ⟨S131072x1, .f32⟩
  | .hbm, ⟨2, _⟩ => ⟨S64, .i32⟩
  | .hbm, ⟨3, _⟩ => ⟨S1024x512, .f32⟩
  | .hbm, ⟨4, _⟩ => ⟨S512, .f32⟩
  | .hbm, ⟨5, _⟩ => ⟨S512x2, .f32⟩
  | .hbm, ⟨6, _⟩ => ⟨S2, .f32⟩
  | .hbm, ⟨7, _⟩ => ⟨S1024x512, .bf16⟩
  | .hbm, ⟨8, _⟩ => ⟨S512x2, .bf16⟩
  | .hbm, ⟨9, _⟩ => ⟨S131072x2, .f32⟩
  | .hbm, ⟨10, _⟩ => ⟨S64, .i32⟩
  | .hbm, ⟨11, _⟩ => ⟨S1, .i32⟩
  | .hbm, ⟨12, _⟩ => ⟨S63, .i32⟩
  | .hbm, ⟨13, _⟩ => ⟨S64, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S64, .i32⟩
  | .hbm, ⟨18, _⟩ => ⟨S_, .i32⟩
  | .hbm, ⟨19, _⟩ => ⟨S_, .i32⟩
  | .hbm, ⟨20, _⟩ => ⟨S64, .i32⟩
  | .hbm, ⟨21, _⟩ => ⟨S_, .i32⟩
  | .hbm, ⟨22, _⟩ => ⟨S131072, .i32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S_, .i32⟩
  | .hbm, ⟨32, _⟩ => ⟨S64, .i32⟩
  | .hbm, ⟨33, _⟩ => ⟨S131072, .i32⟩
  | .hbm, ⟨34, _⟩ => ⟨S_, .i32⟩
  | .hbm, ⟨35, _⟩ => ⟨S_, .i32⟩
  | .hbm, ⟨36, _⟩ => ⟨S131072, .i32⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S1, .i32⟩
  | .hbm, ⟨49, _⟩ => ⟨S_, .i32⟩
  | .hbm, ⟨50, _⟩ => ⟨S131072x1, .i32⟩
  | .hbm, ⟨51, _⟩ => ⟨S131072x1, .i1⟩
  | .hbm, ⟨52, _⟩ => ⟨S1x1, .i32⟩
  | .hbm, ⟨53, _⟩ => ⟨S131072x1, .i32⟩
  | .hbm, ⟨54, _⟩ => ⟨S131072x1, .i1⟩
  | .hbm, ⟨55, _⟩ => ⟨S131072x1, .i1⟩
  | .hbm, ⟨56, _⟩ => ⟨S_, .i1⟩
  | .hbm, ⟨57, _⟩ => ⟨S131072, .i1⟩
  | .hbm, ⟨58, _⟩ => ⟨S131072, .i32⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S_, .f32⟩
  | .hbm, ⟨63, _⟩ => ⟨S64x2, .f32⟩
  | .hbm, ⟨64, _⟩ => ⟨S131072x1, .i32⟩
  | .hbm, ⟨65, _⟩ => ⟨S64x2, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S1024x512, .bf16⟩
  | .local _ .vmem, ⟨5, _⟩ => ⟨S512, .f32⟩
  | .local _ .vmem, ⟨6, _⟩ => ⟨S512x2, .bf16⟩
  | .local _ .vmem, ⟨7, _⟩ => ⟨S2, .f32⟩
  | .local _ .vmem, ⟨8, _⟩ => ⟨S2048x2, .f32⟩
  | .local _ .vmem, ⟨9, _⟩ => ⟨S2048x2, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_call1_call0_c : Ref sig .tc := ⟨.hbm, 18, rfl⟩
abbrev main_call1_call0_v0 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_call2_call0_c : Ref sig .tc := ⟨.hbm, 34, rfl⟩
abbrev main_call2_call0_v0 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_c_4 : Ref sig .tc := ⟨.hbm, 59, rfl⟩
abbrev main_call3_v14 : Ref sig .tc := ⟨.hbm, 60, rfl⟩
abbrev main_v20 : Ref sig .tc := ⟨.hbm, 61, rfl⟩
abbrev main_cst : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  broadcasts_S2048x1_S2048x1024 : S2048x1.Broadcasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S131072 : S_.BroadcastsInDim S131072 (![] : Fin 0 → Fin S131072.rank)
  bcast_S_S64 : S_.BroadcastsInDim S64 (![] : Fin 0 → Fin S64.rank)
  bcast_S64_S64x1_0 : S64.BroadcastsInDim S64x1 (![0] : Fin 1 → Fin S64x1.rank)
  reduceWindows_S131072_S131072_w131072s1p131071_0 : S131072.ReduceWindows (![131072] : Fin 1 → Nat) ![1] ![131071] ![0] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S_S64x2 : S_.BroadcastsInDim S64x2 (![] : Fin 0 → Fin S64x2.rank)
  dot_S2048x1024_S1024x512_S2048x512_1_0_0_1_n_n_wf : DotDims.WF S2048x1024 S1024x512 S2048x512 [1] [0] [0] [1] [] []
  dot_S2048x512_S512x2_S2048x2_1_0_0_1_n_n_wf : DotDims.WF S2048x512 S512x2 S2048x2 [1] [0] [0] [1] [] []
  scatter_S64_S1_S__n_0_0_0_wf : ScatterDims.WF S64 S1 S_ [] [0] [0] 0
  scatter_S131072_S64x1_S64_n_0_0_1_wf : ScatterDims.WF S131072 S64x1 S64 [] [0] [0] 1
  gather_S64_S131072x1_S131072_n_0_n_n_0_1_1_wf : GatherDims.WF S64 S131072x1 S131072 [] [0] [] [0] [] 1 ![1]
  scatter_S64x2_S131072x1_S131072x2_1_0_0_1_wf : ScatterDims.WF S64x2 S131072x1 S131072x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2.size a ≤ S512x2.size a
  hwx0_4 : ∀ i : grid0.Coords, EltTy.bits .bf16 = 32 ∨ (Rect.block (s := S512x2) S512x2.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2.size a ≤ S2.size a
  hwx0_5 : ∀ i : grid0.Coords, EltTy.bits .f32 = 32 ∨ (Rect.block (s := S2) S2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x2.size a ≤ S131072x2.size a
  hwx0_6 : ∀ i : grid0.Coords, EltTy.bits .f32 = 32 ∨ (Rect.block (s := S131072x2) S2048x2.size (cc0_transform_6 i) (hinb0_6 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf
def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S131072_S64x1_S64_n_0_0_1 : ScatterDims S131072 S64x1 S64 where
  updateWindowDims := []
  insertedWindowDims := [0]
  scatterDimsToOperandDims := [0]
  indexVectorDim := 1
  wf := scatter_S131072_S64x1_S64_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def scatter_S64x2_S131072x1_S131072x2_1_0_0_1 : ScatterDims S64x2 S131072x1 S131072x2 where
  updateWindowDims := [1]
  insertedWindowDims := [0]
  scatterDimsToOperandDims := [0]
  indexVectorDim := 1
  wf := scatter_S64x2_S131072x1_S131072x2_1_0_0_1_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x1 : Shape := ⟨2, ![131072, 1]⟩
abbrev S64 : Shape := ⟨1, ![64]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S131072x512 : Shape := ⟨2, ![131072, 512]⟩
abbrev S1x512 : Shape := ⟨2, ![1, 512]⟩
abbrev S_ : Shape := ⟨0, ![]⟩
abbrev S131072x2 : Shape := ⟨2, ![131072, 2]⟩
abbrev S1x2 : Shape := ⟨2, ![1, 2]⟩
abbrev S1 : Shape := ⟨1, ![1]⟩
abbrev S63 : Shape := ⟨1, ![63]⟩
abbrev S131072 : Shape := ⟨1, ![131072]⟩
abbrev S64x1 : Shape := ⟨2, ![64, 1]⟩
abbrev S1x1 : Shape := ⟨2, ![1, 1]⟩
abbrev S64x2 : Shape := ⟨2, ![64, 2]⟩

abbrev nBuf : Space → Nat
  | .hbm => 76
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x1, .f32⟩
  | .hbm, ⟨2, _⟩ => ⟨S64, .i32⟩
  | .hbm, ⟨3, _⟩ => ⟨S1024x512, .f32⟩
  | .hbm, ⟨4, _⟩ => ⟨S512, .f32⟩
  | .hbm, ⟨5, _⟩ => ⟨S512x2, .f32⟩
  | .hbm, ⟨6, _⟩ => ⟨S2, .f32⟩
  | .hbm, ⟨7, _⟩ => ⟨S131072x1024, .f32⟩
  | .hbm, ⟨8, _⟩ => ⟨S131072x1024, .f32⟩
  | .hbm, ⟨9, _⟩ => ⟨S131072x512, .f32⟩
  | .hbm, ⟨10, _⟩ => ⟨S1x512, .f32⟩
  | .hbm, ⟨11, _⟩ => ⟨S131072x512, .f32⟩
  | .hbm, ⟨12, _⟩ => ⟨S131072x512, .f32⟩
  | .hbm, ⟨13, _⟩ => ⟨S_, .f32⟩
  | .hbm, ⟨14, _⟩ => ⟨S131072x512, .f32⟩
  | .hbm, ⟨15, _⟩ => ⟨S131072x512, .f32⟩
  | .hbm, ⟨16, _⟩ => ⟨S131072x2, .f32⟩
  | .hbm, ⟨17, _⟩ => ⟨S1x2, .f32⟩
  | .hbm, ⟨18, _⟩ => ⟨S131072x2, .f32⟩
  | .hbm, ⟨19, _⟩ => ⟨S131072x2, .f32⟩
  | .hbm, ⟨20, _⟩ => ⟨S64, .i32⟩
  | .hbm, ⟨21, _⟩ => ⟨S1, .i32⟩
  | .hbm, ⟨22, _⟩ => ⟨S63, .i32⟩
  | .hbm, ⟨23, _⟩ => ⟨S64, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S64, .i32⟩
  | .hbm, ⟨28, _⟩ => ⟨S_, .i32⟩
  | .hbm, ⟨29, _⟩ => ⟨S_, .i32⟩
  | .hbm, ⟨30, _⟩ => ⟨S64, .i32⟩
  | .hbm, ⟨31, _⟩ => ⟨S_, .i32⟩
  | .hbm, ⟨32, _⟩ => ⟨S131072, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S_, .i32⟩
  | .hbm, ⟨42, _⟩ => ⟨S64, .i32⟩
  | .hbm, ⟨43, _⟩ => ⟨S131072, .i32⟩
  | .hbm, ⟨44, _⟩ => ⟨S_, .i32⟩
  | .hbm, ⟨45, _⟩ => ⟨S_, .i32⟩
  | .hbm, ⟨46, _⟩ => ⟨S131072, .i32⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S1, .i32⟩
  | .hbm, ⟨59, _⟩ => ⟨S_, .i32⟩
  | .hbm, ⟨60, _⟩ => ⟨S131072x1, .i32⟩
  | .hbm, ⟨61, _⟩ => ⟨S131072x1, .i1⟩
  | .hbm, ⟨62, _⟩ => ⟨S1x1, .i32⟩
  | .hbm, ⟨63, _⟩ => ⟨S131072x1, .i32⟩
  | .hbm, ⟨64, _⟩ => ⟨S131072x1, .i1⟩
  | .hbm, ⟨65, _⟩ => ⟨S131072x1, .i1⟩
  | .hbm, ⟨66, _⟩ => ⟨S_, .i1⟩
  | .hbm, ⟨67, _⟩ => ⟨S131072, .i1⟩
  | .hbm, ⟨68, _⟩ => ⟨S131072, .i32⟩
  | .hbm, ⟨69, _⟩ => ⟨S_, .i32⟩
  | .hbm, ⟨70, _⟩ => ⟨S131072, .i32⟩
  | .hbm, ⟨71, _⟩ => ⟨S131072, .i32⟩
  | .hbm, ⟨72, _⟩ => ⟨S_, .f32⟩
  | .hbm, ⟨73, _⟩ => ⟨S64x2, .f32⟩
  | .hbm, ⟨74, _⟩ => ⟨S131072x1, .i32⟩
  | .hbm, ⟨75, _⟩ => ⟨S64x2, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_call2_call0_c : Ref sig .tc := ⟨.hbm, 28, rfl⟩
abbrev main_call2_call0_v0 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_call3_call0_c : Ref sig .tc := ⟨.hbm, 44, rfl⟩
abbrev main_call3_call0_v0 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_call4_c : Ref sig .tc := ⟨.hbm, 50, rfl⟩
abbrev main_call4_v0 : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_c_1 : Ref sig .tc := ⟨.hbm, 58, rfl⟩
abbrev main_call4_c_2 : Ref sig .tc := ⟨.hbm, 59, rfl⟩
abbrev main_call4_v6 : Ref sig .tc := ⟨.hbm, 60, rfl⟩
abbrev main_call4_v7 : Ref sig .tc := ⟨.hbm, 61, rfl⟩
abbrev main_call4_v8 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_c_3 : Ref sig .tc := ⟨.hbm, 66, rfl⟩
abbrev main_call4_v12 : Ref sig .tc := ⟨.hbm, 67, rfl⟩
abbrev main_call4_v13 : Ref sig .tc := ⟨.hbm, 68, rfl⟩
abbrev main_call4_c_4 : Ref sig .tc := ⟨.hbm, 69, rfl⟩
abbrev main_call4_v14 : Ref sig .tc := ⟨.hbm, 70, rfl⟩
abbrev main_v28 : Ref sig .tc := ⟨.hbm, 71, rfl⟩
abbrev main_cst : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩

abbrev nD : Nat := 1
abbrev τ : Topo := Topo.v7x

variable {F : FTy → Type} [FloatOps F]

class Facts₀ : Prop where
  bcast_S131072x1_S131072x1024_0_1 : S131072x1.BroadcastsInDim S131072x1024 (![0, 1] : Fin 2 → Fin S131072x1024.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S131072 : S_.BroadcastsInDim S131072 (![] : Fin 0 → Fin S131072.rank)
  bcast_S_S64 : S_.BroadcastsInDim S64 (![] : Fin 0 → Fin S64.rank)
  bcast_S64_S64x1_0 : S64.BroadcastsInDim S64x1 (![0] : Fin 1 → Fin S64x1.rank)
  reduceWindows_S131072_S131072_w131072s1p131071_0 : S131072.ReduceWindows (![131072] : Fin 1 → Nat) ![1] ![131071] ![0] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S_S64x2 : S_.BroadcastsInDim S64x2 (![] : Fin 0 → Fin S64x2.rank)
  dot_S131072x1024_S1024x512_S131072x512_1_0_0_1_n_n_wf : DotDims.WF S131072x1024 S1024x512 S131072x512 [1] [0] [0] [1] [] []
  dot_S131072x512_S512x2_S131072x2_1_0_0_1_n_n_wf : DotDims.WF S131072x512 S512x2 S131072x2 [1] [0] [0] [1] [] []
  scatter_S64_S1_S__n_0_0_0_wf : ScatterDims.WF S64 S1 S_ [] [0] [0] 0
  scatter_S131072_S64x1_S64_n_0_0_1_wf : ScatterDims.WF S131072 S64x1 S64 [] [0] [0] 1
  gather_S64_S131072x1_S131072_n_0_n_n_0_1_1_wf : GatherDims.WF S64 S131072x1 S131072 [] [0] [] [0] [] 1 ![1]
  scatter_S64x2_S131072x1_S131072x2_1_0_0_1_wf : ScatterDims.WF S64x2 S131072x1 S131072x2 [1] [0] [0] 1

variable [Facts₀]

def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x2_S131072x2_1_0_0_1_n_n : DotDims S131072x512 S512x2 S131072x2 where
  lhsContracting := [1]
  rhsContracting := [0]
  lhsNonContracting := [0]
  rhsNonContracting := [1]
  lhsBatch := []
  rhsBatch := []
  wf := dot_S131072x512_S512x2_S131072x2_1_0_0_1_n_n_wf
def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S131072_S64x1_S64_n_0_0_1 : ScatterDims S131072 S64x1 S64 where
  updateWindowDims := []
  insertedWindowDims := [0]
  scatterDimsToOperandDims := [0]
  indexVectorDim := 1
  wf := scatter_S131072_S64x1_S64_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def scatter_S64x2_S131072x1_S131072x2_1_0_0_1 : ScatterDims S64x2 S131072x1 S131072x2 where
  updateWindowDims := [1]
  insertedWindowDims := [0]
  scatterDimsToOperandDims := [0]
  indexVectorDim := 1
  wf := scatter_S64x2_S131072x1_S131072x2_1_0_0_1_wf

class Facts : Prop extends Facts₀ where

variable [Facts]
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.GateMlp.lean ====
/-
  The patch logits as ONE function of the six argument arrays, entry by entry, on the extended reals.
  For a row `r` and a hidden unit `h` the hidden activation is
      hidden r h = max ((∑ k, att r · feat r k · w1 k h) + b1 h) 0
  (the attention gate applied to the row's features, the first linear layer, its bias, the rectifier), and for a class `c`
      logit r c = (∑ h, hidden r h · w2 h c) + b2 c
  (the second linear layer and its bias). Row `r` of the result depends on row `r` of `att` and `feat` alone:
  `logit_congr_rows`. So a block of rows of the result is the same function of the same block of rows of `att` and
  `feat`; the number of rows `n` is a parameter for that reason (2048 for one block, 131072 for the array).
  The rectifier's zero stays the pattern both programs write (`0x00000000`), never evaluated.
-/
import Idealize.ShloMosaic.PureOps.Ideal
import Idealize.ShloMosaic.Lib.ValueIdx

noncomputable section

open scoped BigOperators

namespace Cert.GateMlp

open Idealize.ShloMosaic Idealize.ShloMosaic.ValueIdx

variable {n : Nat}

/-- The hidden activation of row `r` at unit `h`. -/
def hidden (att : (⟨2, ![n, 1]⟩ : Shape).Idx → EReal) (feat : (⟨2, ![n, 1024]⟩ : Shape).Idx → EReal)
    (w1 : (⟨2, ![1024, 512]⟩ : Shape).Idx → EReal) (b1 : (⟨1, ![512]⟩ : Shape).Idx → EReal) (r : Fin n) (h : Fin 512) : EReal :=
  max ((∑ k : Fin 1024, att (ix2 r (0 : Fin 1)) * feat (ix2 r k) * w1 (ix2 k h)) + b1 (ix1 h)) (Ideal.ofBits .f32 0x00000000#32)

/-- The logit of row `r` for class `c`. -/
def logit (att : (⟨2, ![n, 1]⟩ : Shape).Idx → EReal) (feat : (⟨2, ![n, 1024]⟩ : Shape).Idx → EReal)
    (w1 : (⟨2, ![1024, 512]⟩ : Shape).Idx → EReal) (b1 : (⟨1, ![512]⟩ : Shape).Idx → EReal)
    (w2 : (⟨2, ![512, 2]⟩ : Shape).Idx → EReal) (b2 : (⟨1, ![2]⟩ : Shape).Idx → EReal) (r : Fin n) (c : Fin 2) : EReal :=
  (∑ h : Fin 512, hidden att feat w1 b1 r h * w2 (ix2 h c)) + b2 (ix1 c)

/-- The whole array of logits. -/
def logits (att : (⟨2, ![n, 1]⟩ : Shape).Idx → EReal) (feat : (⟨2, ![n, 1024]⟩ : Shape).Idx → EReal)
    (w1 : (⟨2, ![1024, 512]⟩ : Shape).Idx → EReal) (b1 : (⟨1, ![512]⟩ : Shape).Idx → EReal)
    (w2 : (⟨2, ![512, 2]⟩ : Shape).Idx → EReal) (b2 : (⟨1, ![2]⟩ : Shape).Idx → EReal) : (⟨2, ![n, 2]⟩ : Shape).Idx → EReal :=
  fun i => logit att feat w1 b1 w2 b2 (i 0) (i 1)

theorem logits_apply (att : (⟨2, ![n, 1]⟩ : Shape).Idx → EReal) (feat : (⟨2, ![n, 1024]⟩ : Shape).Idx → EReal)
    (w1 : (⟨2, ![1024, 512]⟩ : Shape).Idx → EReal) (b1 : (⟨1, ![512]⟩ : Shape).Idx → EReal)
    (w2 : (⟨2, ![512, 2]⟩ : Shape).Idx → EReal) (b2 : (⟨1, ![2]⟩ : Shape).Idx → EReal) (r : Fin n) (c : Fin 2) :
    logits att feat w1 b1 w2 b2 (ix2 r c) = logit att feat w1 b1 w2 b2 r c := rfl

/-- Row `r` of the logits depends on row `r` of the gate and of the features alone: two pairs of arrays, of any
    numbers of rows, that agree on one row each give that row the same logits. -/
theorem logit_congr_rows {n' : Nat} (att : (⟨2, ![n, 1]⟩ : Shape).Idx → EReal) (feat : (⟨2, ![n, 1024]⟩ : Shape).Idx → EReal)
    (att' : (⟨2, ![n', 1]⟩ : Shape).Idx → EReal) (feat' : (⟨2, ![n', 1024]⟩ : Shape).Idx → EReal)
    (w1 : (⟨2, ![1024, 512]⟩ : Shape).Idx → EReal) (b1 : (⟨1, ![512]⟩ : Shape).Idx → EReal)
    (w2 : (⟨2, ![512, 2]⟩ : Shape).Idx → EReal) (b2 : (⟨1, ![2]⟩ : Shape).Idx → EReal) (r : Fin n) (r' : Fin n') (c : Fin 2)
    (ha : att' (ix2 r' (0 : Fin 1)) = att (ix2 r (0 : Fin 1))) (hf : ∀ k : Fin 1024, feat' (ix2 r' k) = feat (ix2 r k)) :
    logit att' feat' w1 b1 w2 b2 r' c = logit att feat w1 b1 w2 b2 r c := by
  unfold logit hidden
  simp only [ha, hf]

end Cert.GateMlp

end
-- ==== Proof.KernelPayload.lean ====
/-
  What one grid point's body stores, read at an entry. The body loads the point's block of 2048 feature rows, the
  matching 2048 gate values, and the whole of both weight matrices and both bias vectors; it multiplies each feature
  row by its gate value, applies the first linear layer, the bias and the rectifier, then the second linear layer and its
  bias. At the ideal values the two roundings to the short format are the identity and each matrix product into a zero
  accumulator is the plain sum over the contracted coordinate, so the stored value at `(y, c)` is the specification's
  `logit` of the loaded blocks at row `y` and class `c`.
-/
import proofs.«108837_j82240033784369_2_alg».proof.Proof.Gen.KernelIdeal.Skeleton
import proofs.«108837_j82240033784369_2_alg».proof.Proof.LibMatDot
import proofs.«108837_j82240033784369_2_alg».proof.Proof.GateMlp

noncomputable section

open scoped BigOperators

namespace Cert.KernelIdeal.Hand

open Cert.KernelIdeal Cert.KernelIdeal.Gen Idealize.ShloMosaic Idealize.ShloMosaic.ValueIdx

/-- The gated features of the block: each feature row times its gate value (both rounded to the short format first). -/
def gated (x0 : Vec Ideal S2048x1024 .f32) (x1 : Vec Ideal S2048x1 .f32) : FVec Ideal S2048x1024 .bf16 :=
  mulf (broadcastTo S2048x1024 (truncf .bf16 x1 bitsLt_bf16_f32) broadcasts_S2048x1_S2048x1024) (truncf .bf16 x0 bitsLt_bf16_f32)

/-- The hidden layer of the block: first linear layer, bias, rectifier, rounded to the short format. -/
def hid (x0 : Vec Ideal S2048x1024 .f32) (x1 : Vec Ideal S2048x1 .f32) (x2 : Vec Ideal S1024x512 .bf16) (x3 : Vec Ideal S512 .f32) :
    FVec Ideal S2048x512 .bf16 :=
  truncf .bf16 (maximumf (addf (matmul dot_S2048x1024_S1024x512_S2048x512_1_0_0_1_n_n none (gated x0 x1)
      (shapeCast S1024x512 x2 shapeCasts_S1024x512_S1024x512 : FVec Ideal S1024x512 .bf16) (constant S2048x512 .f32 0x00000000#32))
    (broadcastTo S2048x512 (shapeCast S1x512 x3 shapeCasts_S512_S1x512) broadcasts_S1x512_S2048x512))
    (broadcast S2048x512 (Scalar.ofBits .f32 0x00000000#32))) bitsLt_bf16_f32

/-- The body's stored value is the second linear layer and its bias over the hidden layer. -/
theorem pay_eq (x0 : Vec Ideal S2048x1024 .f32) (x1 : Vec Ideal S2048x1 .f32) (x2 : Vec Ideal S1024x512 .bf16) (x3 : Vec Ideal S512 .f32)
    (x4 : Vec Ideal S512x2 .bf16) (x5 : Vec Ideal S2 .f32) :
    k0_pay1 (F := Ideal) x0 x1 x2 x3 x4 x5
      = addf (matmul dot_S2048x512_S512x2_S2048x2_1_0_0_1_n_n none (hid x0 x1 x2 x3)
          (shapeCast S512x2 x4 shapeCasts_S512x2_S512x2 : FVec Ideal S512x2 .bf16) (constant S2048x2 .f32 0x00000000#32))
        (broadcastTo S2048x2 (shapeCast S1x2 x5 shapeCasts_S2_S1x2) broadcasts_S1x2_S2048x2) := rfl

/-- The gated features at `(y, k)`: the gate value of row `y` times the feature. -/
theorem gated_apply (x0 : Vec Ideal S2048x1024 .f32) (x1 : Vec Ideal S2048x1 .f32) (y : Fin 2048) (k : Fin 1024) :
    gated x0 x1 (ix2 y k) = x1 (ix2 y (0 : Fin 1)) * x0 (ix2 y k) := by
  unfold gated
  rw [mulf_apply, Cert.Lib.MatDot.broadcastTo_col_apply]
  rfl

/-- The hidden layer at `(y, h)` is the specification's hidden activation of the loaded blocks. -/
theorem hid_apply (x0 : Vec Ideal S2048x1024 .f32) (x1 : Vec Ideal S2048x1 .f32) (x2 : Vec Ideal S1024x512 .bf16) (x3 : Vec Ideal S512 .f32)
    (y : Fin 2048) (h : Fin 512) :
    hid x0 x1 x2 x3 (ix2 y h) = Cert.GateMlp.hidden x1 x0 x2 x3 y h := by
  unfold hid
  rw [truncf_apply, maximumf_apply, addf_apply, Idealize.ShloMosaic.shapeCast_self,
    show dot_S2048x1024_S1024x512_S2048x512_1_0_0_1_n_n
      = (⟨[1], [0], [0], [1], [], [], dot_S2048x1024_S1024x512_S2048x512_1_0_0_1_n_n_wf⟩ : DotDims ⟨2, ![2048, 1024]⟩ ⟨2, ![1024, 512]⟩ ⟨2, ![2048, 512]⟩) from rfl,
    Cert.Lib.MatDot.matmul_zero_apply, Cert.Lib.MatDot.broadcastTo_vec_rows_apply]
  unfold Cert.GateMlp.hidden
  simp only [gated_apply]
  rfl

/-- THE STORED VALUE at `(y, c)` is the specification's logit of the loaded blocks at row `y`, class `c`. -/
theorem pay_apply (x0 : Vec Ideal S2048x1024 .f32) (x1 : Vec Ideal S2048x1 .f32) (x2 : Vec Ideal S1024x512 .bf16) (x3 : Vec Ideal S512 .f32)
    (x4 : Vec Ideal S512x2 .bf16) (x5 : Vec Ideal S2 .f32) (y : Fin 2048) (c : Fin 2) :
    k0_pay1 (F := Ideal) x0 x1 x2 x3 x4 x5 (ix2 y c) = Cert.GateMlp.logit x1 x0 x2 x3 x4 x5 y c := by
  rw [pay_eq, addf_apply, Idealize.ShloMosaic.shapeCast_self,
    show dot_S2048x512_S512x2_S2048x2_1_0_0_1_n_n
      = (⟨[1], [0], [0], [1], [], [], dot_S2048x512_S512x2_S2048x2_1_0_0_1_n_n_wf⟩ : DotDims ⟨2, ![2048, 512]⟩ ⟨2, ![512, 2]⟩ ⟨2, ![2048, 2]⟩) from rfl,
    Cert.Lib.MatDot.matmul_zero_apply, Cert.Lib.MatDot.broadcastTo_vec_rows_apply]
  unfold Cert.GateMlp.logit
  simp only [hid_apply]

end Cert.KernelIdeal.Hand

end
-- ==== Proof.KernelBlocks.lean ====
/-
  From blocks to the array. Grid point `t` (of 64) reads rows `2048 t … 2048 t + 2047` of the features and of the gate,
  the whole of the two weight matrices and of the two bias vectors, and writes rows `2048 t … 2048 t + 2047` of the
  result. A row of the specification's logits depends on the same row of the features and of the gate alone, so what
  point `t` writes back is block `t` of ONE whole-array function, the logits of the arrays as the region finds them;
  the 64 blocks tile the 131072 rows (row `r` is in block `r / 2048`), so the array ends holding that function.
-/
import proofs.«108837_j82240033784369_2_alg».proof.Proof.Gen.KernelIdeal.Frame
import proofs.«108837_j82240033784369_2_alg».proof.Proof.KernelPayload
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The logits of the six arrays as the region finds them: what the result array ends holding. -/
abbrev patchV (c : Dev nD) : S131072x2.Idx → Elt Ideal .f32 :=
  Cert.GateMlp.logits (n := 131072) (V m c main_arg1 : S131072x1.Idx → Elt Ideal .f32) (V m c main_arg0 : S131072x1024.Idx → Elt Ideal .f32)
    (V m c main_v0 : S1024x512.Idx → Elt Ideal .bf16) (V m c main_arg4 : S512.Idx → Elt Ideal .f32)
    (V m c main_v1 : S512x2.Idx → Elt Ideal .bf16) (V m c main_arg6 : S2.Idx → Elt Ideal .f32)

/-- The printed index maps over the grid: the feature, gate and result windows sit at block `t` of the rows, every other
    block index is zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 64 :=
  Nat.lt_of_lt_of_eq t.isLt (show cfg0.N = 64 from N_0)

/-- The feature block at point `t`, row `y`, is row `2048 t + y` of the features. -/
theorem feat_block (c : Dev nD) (t : Fin cfg0.N) (y : Fin 2048) (k : Fin 1024) (r : Fin 131072) (hr : r.val = t.val * 2048 + y.val) :
    (iblk m c 0 t : Vec Ideal S2048x1024 .f32) (ix2 y k) = (V m c main_arg0 : S131072x1024.Idx → Elt Ideal .f32) (ix2 r k) := by
  obtain ⟨e0, e1, -⟩ := index_facts t
  unfold iblk
  rw [View.read_apply]
  show (V m c main_arg0 : S131072x1024.Idx → Elt Ideal .f32) (((cfg0.win 0).blk t).view.emb (ix2 y k)) = _
  refine congrArg (V m c main_arg0 : S131072x1024.Idx → Elt Ideal .f32) (funext fun a => Fin.ext ?_)
  match a with
  | ⟨0, _⟩ => show win0_0.index t (0 : Fin 2) * 2048 + 1 * y.val = r.val; rw [e0, hr]; omega
  | ⟨1, _⟩ => show win0_0.index t (1 : Fin 2) * 1024 + 1 * k.val = k.val; rw [e1]; omega

/-- The gate block at point `t`, row `y`, is row `2048 t + y` of the gate. -/
theorem gate_block (c : Dev nD) (t : Fin cfg0.N) (y : Fin 2048) (r : Fin 131072) (hr : r.val = t.val * 2048 + y.val) :
    (iblk m c 1 t : Vec Ideal S2048x1 .f32) (ix2 y (0 : Fin 1)) = (V m c main_arg1 : S131072x1.Idx → Elt Ideal .f32) (ix2 r (0 : Fin 1)) := by
  obtain ⟨-, -, e2, e3, -⟩ := index_facts t
  unfold iblk
  rw [View.read_apply]
  show (V m c main_arg1 : S131072x1.Idx → Elt Ideal .f32) (((cfg0.win 1).blk t).view.emb (ix2 y (0 : Fin 1))) = _
  refine congrArg (V m c main_arg1 : S131072x1.Idx → Elt Ideal .f32) (funext fun a => Fin.ext ?_)
  match a with
  | ⟨0, _⟩ => show win0_1.index t (0 : Fin 2) * 2048 + 1 * y.val = r.val; rw [e2, hr]; omega
  | ⟨1, _⟩ => show win0_1.index t (1 : Fin 2) * 1 + 1 * 0 = 0; rw [e3]

/-- The first weight matrix's block is the whole matrix at every point. -/
theorem w1_block (c : Dev nD) (t : Fin cfg0.N) :
    (iblk m c 2 t : Vec Ideal S1024x512 .bf16) = (V m c main_v0 : S1024x512.Idx → Elt Ideal .bf16) := by
  obtain ⟨-, -, -, -, e4, e5, -⟩ := index_facts t
  funext j
  unfold iblk
  rw [View.read_apply]
  show (V m c main_v0 : S1024x512.Idx → Elt Ideal .bf16) (((cfg0.win 2).blk t).view.emb j) = _
  refine congrArg (V m c main_v0 : S1024x512.Idx → Elt Ideal .bf16) (funext fun a => Fin.ext ?_)
  match a with
  | ⟨0, _⟩ => show win0_2.index t (0 : Fin 2) * 1024 + 1 * (j 0).val = (j 0).val; rw [e4]; omega
  | ⟨1, _⟩ => show win0_2.index t (1 : Fin 2) * 512 + 1 * (j 1).val = (j 1).val; rw [e5]; omega

/-- The first bias vector's block is the whole vector. -/
theorem b1_block (c : Dev nD) (t : Fin cfg0.N) :
    (iblk m c 3 t : Vec Ideal S512 .f32) = (V m c main_arg4 : S512.Idx → Elt Ideal .f32) := by
  obtain ⟨-, -, -, -, -, -, e6, -⟩ := index_facts t
  funext j
  unfold iblk
  rw [View.read_apply]
  show (V m c main_arg4 : S512.Idx → Elt Ideal .f32) (((cfg0.win 3).blk t).view.emb j) = _
  refine congrArg (V m c main_arg4 : S512.Idx → Elt Ideal .f32) (funext fun a => Fin.ext ?_)
  match a with
  | ⟨0, _⟩ => show win0_3.index t (0 : Fin 1) * 512 + 1 * (j 0).val = (j 0).val; rw [e6]; omega

/-- The second weight matrix's block is the whole matrix. -/
theorem w2_block (c : Dev nD) (t : Fin cfg0.N) :
    (iblk m c 4 t : Vec Ideal S512x2 .bf16) = (V m c main_v1 : S512x2.Idx → Elt Ideal .bf16) := by
  obtain ⟨-, -, -, -, -, -, -, e7, e8, -⟩ := index_facts t
  funext j
  unfold iblk
  rw [View.read_apply]
  show (V m c main_v1 : S512x2.Idx → Elt Ideal .bf16) (((cfg0.win 4).blk t).view.emb j) = _
  refine congrArg (V m c main_v1 : S512x2.Idx → Elt Ideal .bf16) (funext fun a => Fin.ext ?_)
  match a with
  | ⟨0, _⟩ => show win0_4.index t (0 : Fin 2) * 512 + 1 * (j 0).val = (j 0).val; rw [e7]; omega
  | ⟨1, _⟩ => show win0_4.index t (1 : Fin 2) * 2 + 1 * (j 1).val = (j 1).val; rw [e8]; omega

/-- The second bias vector's block is the whole vector. -/
theorem b2_block (c : Dev nD) (t : Fin cfg0.N) :
    (iblk m c 5 t : Vec Ideal S2 .f32) = (V m c main_arg6 : S2.Idx → Elt Ideal .f32) := by
  obtain ⟨-, -, -, -, -, -, -, -, -, e9, -⟩ := index_facts t
  funext j
  unfold iblk
  rw [View.read_apply]
  show (V m c main_arg6 : S2.Idx → Elt Ideal .f32) (((cfg0.win 5).blk t).view.emb j) = _
  refine congrArg (V m c main_arg6 : S2.Idx → Elt Ideal .f32) (funext fun a => Fin.ext ?_)
  match a with
  | ⟨0, _⟩ => show win0_5.index t (0 : Fin 1) * 2 + 1 * (j 0).val = (j 0).val; rw [e9]; omega

/-- WHAT POINT `t` WRITES BACK is block `t` of the logits of the arrays as the region finds them. -/
theorem flushed_logits (c : Dev nD) (t : Fin cfg0.N) :
    (dats m 0 c).flushed 6 t = ((cfg0.win 6).blk t).view.read (Elt Ideal) (patchV m c) := by
  show (cfg0.win 6).cut (grid0.coords t) ((dats m 0 c).after 6 t) = _
  rw [after0_6]
  unfold out0_6
  rw [View.canon_unit_zero zero2]
  simp only [View.ld_unit_zero (S := S2048x1024) zero2, View.ld_unit_zero (S := S2048x1) zero2,
    View.ld_unit_zero (S := S1024x512) zero2, View.ld_unit_zero (S := S512) zero1,
    View.ld_unit_zero (S := S512x2) zero2, View.ld_unit_zero (S := S2) zero1]
  funext j
  obtain ⟨y, cc, rfl⟩ : ∃ (y : Fin 2048) (cc : Fin 2), j = ix2 y cc := ⟨j 0, j 1, eq_ix2 j⟩
  obtain ⟨-, -, -, -, -, -, -, -, -, -, e10, e11⟩ := index_facts t
  have ht := point_lt t
  have hy := y.isLt
  have hemb : ((cfg0.win 6).blk t).view.emb (ix2 y cc) = ix2 (⟨t.val * 2048 + y.val, by omega⟩ : Fin 131072) cc := by
    funext a; apply Fin.ext
    match a with
    | ⟨0, _⟩ => show win0_6.index t (0 : Fin 2) * 2048 + 1 * y.val = t.val * 2048 + y.val; rw [e10]; omega
    | ⟨1, _⟩ => show win0_6.index t (1 : Fin 2) * 2 + 1 * cc.val = cc.val; rw [e11]; omega
  show k0_pay1 (F := Ideal) (iblk m c 0 t) (iblk m c 1 t) (iblk m c 2 t) (iblk m c 3 t) (iblk m c 4 t) (iblk m c 5 t) (ix2 y cc)
      = patchV m c (((cfg0.win 6).blk t).view.emb (ix2 y cc))
  rw [hemb]
  refine (pay_apply _ _ _ _ _ _ y cc).trans ?_
  show Cert.GateMlp.logit (n := 2048) (iblk m c 1 t : Vec Ideal S2048x1 .f32) (iblk m c 0 t : Vec Ideal S2048x1024 .f32)
        (iblk m c 2 t : Vec Ideal S1024x512 .bf16) (iblk m c 3 t : Vec Ideal S512 .f32)
        (iblk m c 4 t : Vec Ideal S512x2 .bf16) (iblk m c 5 t : Vec Ideal S2 .f32) y cc
      = Cert.GateMlp.logit (n := 131072) (V m c main_arg1 : S131072x1.Idx → Elt Ideal .f32) (V m c main_arg0 : S131072x1024.Idx → Elt Ideal .f32)
        (V m c main_v0 : S1024x512.Idx → Elt Ideal .bf16) (V m c main_arg4 : S512.Idx → Elt Ideal .f32)
        (V m c main_v1 : S512x2.Idx → Elt Ideal .bf16) (V m c main_arg6 : S2.Idx → Elt Ideal .f32) ⟨t.val * 2048 + y.val, by omega⟩ cc
  rw [w1_block m c t, b1_block m c t, w2_block m c t, b2_block m c t]
  exact Cert.GateMlp.logit_congr_rows _ _ _ _ _ _ _ _ _ y cc (gate_block m c t y _ rfl) (fun k => feat_block m c t y k _ rfl)

/-- An index of the result array is in point `t`'s block iff each coordinate is in the block's range on its axis. -/
theorem mem_block (t : Fin cfg0.N) (i : S131072x2.Idx) :
    i ∈ ((cfg0.win 6).blk t).view.set ↔ ∀ a : Fin 2, win0_6.index t a * S2048x2.size a ≤ (i a).val ∧ (i a).val < win0_6.index t a * S2048x2.size a + S2048x2.size a := by
  show i ∈ ((View.whole main_v2).slice (win0_6.rect t)).set ↔ _
  rw [View.set_slice_whole, Rect.mem_set_unit]
  exact Iff.rfl

/-- The 64 blocks tile the rows: row `r` is in block `r / 2048`. -/
theorem covered (i : S131072x2.Idx) : ∃ t : Fin cfg0.N, (cfg0.win 6).flush t = true ∧ i ∈ ((cfg0.win 6).blk t).view.set := by
  have hi0 : (i 0).val < 131072 := (i 0).isLt
  have hi1 : (i 1).val < 2 := (i 1).isLt
  have hN : cfg0.N = 64 := N_0
  let t : Fin cfg0.N := ⟨(i 0).val / 2048, by rw [hN]; omega⟩
  obtain ⟨-, -, -, -, -, -, -, -, -, -, e10, e11⟩ := index_facts t
  have e10' : win0_6.index t (0 : Fin 2) = (i 0).val / 2048 := e10
  refine ⟨t, flush0_6 t, ?_⟩
  rw [mem_block]
  intro a
  match a with
  | ⟨0, _⟩ => show win0_6.index t (0 : Fin 2) * 2048 ≤ (i 0).val ∧ (i 0).val < win0_6.index t (0 : Fin 2) * 2048 + 2048; rw [e10']; omega
  | ⟨1, _⟩ => show win0_6.index t (1 : Fin 2) * 2 ≤ (i 1).val ∧ (i 1).val < win0_6.index t (1 : Fin 2) * 2 + 2; rw [e11]; omega

/-- THE RESULT ARRAY after the region: the logits of the arrays as the region finds them. -/
theorem final_logits (c : Dev nD) : (dats m 0 c).arrAt 6 cfg0.N = patchV m c :=
  (dats m 0 c).arrAt_eq_of_cover 6 (patchV m c) (fun t _ => flushed_logits m c t) covered

end Cert.KernelIdeal.Hand

end
-- ==== Proof.LibHostFold.lean ====
/-
  A line of host operations folds over a valuation of the buffers, one operation at a time. Over a concatenation of
  two lines the fold is the second line's fold of the first line's: a long line can be read in stretches, each over a
  variable valuation, and the stretches' values composed.
-/
import Idealize.ShloMosaic.Lib.StableHlo.Run

noncomputable section

namespace Cert.Lib.HostFold

open Idealize.ShloMosaic Idealize.ShloMosaic.StableHlo

variable {τ : Topo} {sig : RefSig} {Val : EltTy → Type}

/-- The fold over `l₁ ++ l₂` is `l₂`'s fold of `l₁`'s. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.HostFold

end
-- ==== Proof.KernelTail.lean ====
/-
  The host operations after the region, as one function. After the kernel has written the patch logits, @main computes
  each row's bag index from the bag sizes (the sizes rolled by one place with a zero in front, their running sum — each
  bag's first row —, a one scattered at each first row, the running sum of those minus one, read through `arange(64)`
  with out-of-range rows sent to the least integer) and scatter-adds the rows of the patch logits at their bag index over
  zeros. The result is a function of the bag sizes and of the patch logits alone; it is named here, operation by
  operation as the program spells it, and never opened: both programs end with it. The line is read in three stretches
  (up to the bags' first rows; up to each row's bag; the gather through `arange(64)` and the scatter-add), each over a
  variable valuation.
-/
import proofs.«108837_j82240033784369_2_alg».proof.Proof.Gen.KernelIdeal.Frame
import proofs.«108837_j82240033784369_2_alg».proof.Proof.LibHostFold
import Idealize.ShloMosaic.Lib.StableHlo.Run

set_option pp.deepTerms false
set_option pp.maxSteps 3000

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The bag sizes rolled by one place (the last first), then a zero written at place 0. -/
def shifted (bag : (⟨S64, .i32⟩ : BufTy).Contents (Elt F)) : (⟨S64, .i32⟩ : BufTy).Contents (Elt F) :=
  Host.scatter scatter_S64_S1_S__n_0_0_0 (fun _ b => b)
    (concatenate S64 0 [⟨S1, extractStridedSlice S1 ![63] bag slices_S64_S1_63⟩, ⟨S63, extractStridedSlice S63 ![0] bag slices_S64_S63_0⟩] concatenates_S1_S63_S64_d0)
    (broadcastInDim S1 ![] bcast_S_S1 (constantI S_ 32 0#32)) (constantI S_ 32 0#32)

/-- Its running sum: each bag's first row. -/
def starts (bag : (⟨S64, .i32⟩ : BufTy).Contents (Elt F)) : (⟨S64, .i32⟩ : BufTy).Contents (Elt F) :=
  Host.reduceWindow IntOp.addi ![64] ![1] ![63] ![0] (shifted bag) (broadcastInDim S_ ![] bcast_S_S_ (constantI S_ 32 0#32)) reduceWindows_S64_S64_w64s1p63_0 h_S_

/-- From the bags' first rows `s`: a one added at each first row (a negative row first wrapped by 131072), over zeros. -/
def marksOf (s : (⟨S64, .i32⟩ : BufTy).Contents (Elt F)) : (⟨S131072, .i32⟩ : BufTy).Contents (Elt F) :=
  Host.scatter scatter_S131072_S64x1_S64_n_0_0_1 IntOp.addi
    (broadcastInDim S131072 ![] bcast_S_S131072 (constantI S_ 32 0#32))
    (broadcastInDim S64x1 ![0] bcast_S64_S64x1_0
      (select (cmpi .slt s (broadcastInDim S64 ![] bcast_S_S64 (constantI S_ 32 0#32)))
        (addi s (broadcastInDim S64 ![] bcast_S_S64 (constantI S_ 32 131072#32))) s))
    (broadcastInDim S64 ![] bcast_S_S64 (constantI S_ 32 1#32))

/-- The running sum of those marks minus one: each row's bag. -/
def rowBagOf (s : (⟨S64, .i32⟩ : BufTy).Contents (Elt F)) : (⟨S131072, .i32⟩ : BufTy).Contents (Elt F) :=
  subi (Host.reduceWindow IntOp.addi ![131072] ![1] ![131071] ![0] (marksOf s) (broadcastInDim S_ ![] bcast_S_S_ (constantI S_ 32 0#32)) reduceWindows_S131072_S131072_w131072s1p131071_0 h_S_)
    (broadcastInDim S131072 ![] bcast_S_S131072 (constantI S_ 32 1#32))

/-- An index, a negative one wrapped by 64, as a column. -/
def takeIdx (idx : (⟨S131072, .i32⟩ : BufTy).Contents (Elt F)) : (⟨S131072x1, .i32⟩ : BufTy).Contents (Elt F) :=
  broadcastInDim S131072x1 ![0] bcast_S131072_S131072x1_0
    (select (cmpi .slt idx (broadcastInDim S131072 ![] bcast_S_S131072 (constantI S_ 32 0#32)))
      (addi idx (broadcastInDim S131072 ![] bcast_S_S131072 (constantI S_ 32 64#32))) idx)

/-- The gather of `x` at the wrapped index where that index lies in 0 … 63, the least integer elsewhere. -/
def takeAt (x : (⟨S64, .i32⟩ : BufTy).Contents (Elt F)) (idx : (⟨S131072, .i32⟩ : BufTy).Contents (Elt F)) : (⟨S131072, .i32⟩ : BufTy).Contents (Elt F) :=
  select
    (Host.reduce IntOp.andi
      (andi (cmpi .sge (takeIdx idx) (broadcastInDim S131072x1 ![] bcast_S_S131072x1 (constantI S_ 32 0#32)))
        (cmpi .sle (takeIdx idx) (broadcastInDim S131072x1 ![0, 1] bcast_S1x1_S131072x1_0_1 (broadcastInDim S1x1 ![1] bcast_S1_S1x1_1 (constantI S1 32 63#32)))))
      (constantI S_ 1 1#1) reducesTo_S131072x1_S131072_d1 h_S_)
    (Host.gather gather_S64_S131072x1_S131072_n_0_n_n_0_1_1 x (takeIdx idx))
    (broadcastInDim S131072 ![] bcast_S_S131072 (constantI S_ 32 2147483648#32))

/-- The scatter-add of the rows of `pl` at the bag indices `ids` over zeros. -/
def sumAt (ids : (⟨S131072, .i32⟩ : BufTy).Contents (Elt F)) (pl : (⟨S131072x2, .f32⟩ : BufTy).Contents (Elt F)) : (⟨S64x2, .f32⟩ : BufTy).Contents (Elt F) :=
  Host.scatterAdd scatter_S64x2_S131072x1_S131072x2_1_0_0_1
    (broadcastInDim S64x2 ![] bcast_S_S64x2 (constant S_ .f32 0x00000000#32))
    (broadcastInDim S131072x1 ![0] bcast_S131072_S131072x1_0 ids) pl

/-- Each row's bag index: `arange(64)` read at each row's bag. -/
def segIds (bag : (⟨S64, .i32⟩ : BufTy).Contents (Elt F)) : (⟨S131072, .i32⟩ : BufTy).Contents (Elt F) :=
  takeAt (iotaInDim S64 32 0) (rowBagOf (starts bag))

/-- The per-bag sums: the rows of `pl` scatter-added at their bag index over zeros. -/
def segsum (bag : (⟨S64, .i32⟩ : BufTy).Contents (Elt F)) (pl : (⟨S131072x2, .f32⟩ : BufTy).Contents (Elt F)) : (⟨S64x2, .f32⟩ : BufTy).Contents (Elt F) :=
  sumAt (segIds bag) pl

/-- The first stretch: up to the bags' first rows. -/
abbrev opsA : List (HloOp τ sig (Elt F)) := hostOps1 ++ hostOps1_1 ++ hostOps1_2 ++ hostOps1_3
/-- The second: up to each row's bag. -/
abbrev opsB : List (HloOp τ sig (Elt F)) := hostOps1_4 ++ hostOps1_5 ++ hostOps1_6
/-- The third: the gather through `arange(64)` and the scatter-add. -/
abbrev opsC : List (HloOp τ sig (Elt F)) := hostOps1_7 ++ hostOps1_8

theorem flat_eq : List.flatten [hostOps1, hostOps1_1, hostOps1_2, hostOps1_3, hostOps1_4, hostOps1_5, hostOps1_6, hostOps1_7, hostOps1_8]
    = (opsA ++ (opsB ++ opsC) : List (HloOp τ sig (Elt F))) := by
  simp only [List.flatten_cons, List.flatten_nil, List.append_nil, List.append_assoc]

/-! ### The first stretch -/

theorem a_starts (W : Valuation τ sig (Elt F)) : after opsA W (Proc.devRef .tc main_v7) = starts (W (Proc.devRef .tc main_arg2)) := by
  unfold starts shifted
  simp only [opsA, hostOps1, hostOps1_1, hostOps1_2, hostOps1_3, List.cons_append, List.nil_append, TRef.nullary, TRef.unary, TRef.binary, TRef.ternary]
  after_results_simp
  repeat (first
    | rw [unary_result] | rw [nullary_result]
    | (rw [unary_result_ne]; rotate_left; decide)
    | (rw [nullary_result_ne]; rotate_left; decide))
  first | done | (simp only [cast_eq]; done) | fail "a_starts"

theorem a_iota (W : Valuation τ sig (Elt F)) : after opsA W (Proc.devRef .tc main_v3) = iotaInDim S64 32 0 := by
  simp only [opsA, hostOps1, hostOps1_1, hostOps1_2, hostOps1_3, List.cons_append, List.nil_append, TRef.nullary, TRef.unary, TRef.binary, TRef.ternary]
  after_results_simp
  first | done | (simp only [cast_eq]; done) | rfl | fail "a_iota"

theorem a_logits (W : Valuation τ sig (Elt F)) : after opsA W (Proc.devRef .tc main_v2) = W (Proc.devRef .tc main_v2) := by
  simp only [opsA, hostOps1, hostOps1_1, hostOps1_2, hostOps1_3, List.cons_append, List.nil_append, TRef.nullary, TRef.unary, TRef.binary, TRef.ternary]
  after_results_simp
  first | done | (simp only [cast_eq]; done) | rfl | fail "a_logits"

/-! ### The second stretch -/

theorem b_rowBag (U : Valuation τ sig (Elt F)) : after opsB U (Proc.devRef .tc main_v19) = rowBagOf (U (Proc.devRef .tc main_v7)) := by
  unfold rowBagOf marksOf
  simp only [opsB, hostOps1_4, hostOps1_5, hostOps1_6, List.cons_append, List.nil_append, TRef.nullary, TRef.unary, TRef.binary, TRef.ternary]
  after_results_simp
  first | done | (simp only [cast_eq]; done) | rfl | fail "b_rowBag"

theorem b_iota (U : Valuation τ sig (Elt F)) : after opsB U (Proc.devRef .tc main_v3) = U (Proc.devRef .tc main_v3) := by
  simp only [opsB, hostOps1_4, hostOps1_5, hostOps1_6, List.cons_append, List.nil_append, TRef.nullary, TRef.unary, TRef.binary, TRef.ternary]
  after_results_simp
  first | done | (simp only [cast_eq]; done) | rfl | fail "b_iota"

theorem b_logits (U : Valuation τ sig (Elt F)) : after opsB U (Proc.devRef .tc main_v2) = U (Proc.devRef .tc main_v2) := by
  simp only [opsB, hostOps1_4, hostOps1_5, hostOps1_6, List.cons_append, List.nil_append, TRef.nullary, TRef.unary, TRef.binary, TRef.ternary]
  after_results_simp
  first | done | (simp only [cast_eq]; done) | rfl | fail "b_logits"

/-! ### The third stretch -/

theorem c_sums (U : Valuation τ sig (Elt F)) :
    after opsC U (Proc.devRef .tc main_v23)
      = sumAt (takeAt (U (Proc.devRef .tc main_v3)) (U (Proc.devRef .tc main_v19))) (U (Proc.devRef .tc main_v2)) := by
  unfold sumAt takeAt takeIdx
  simp only [opsC, hostOps1_7, hostOps1_8, List.cons_append, List.nil_append, TRef.nullary, TRef.unary, TRef.binary, TRef.ternary]
  after_results_simp
  first | done | (simp only [cast_eq]; done) | rfl | fail "c_sums"

/-- THE LINE after the region, read at the per-bag sums' buffer: `segsum` of what the valuation holds at the bag sizes
    and at the patch logits. -/
theorem tail_fold (W : Valuation τ sig (Elt F)) :
    StableHlo.after (List.flatten [hostOps1, hostOps1_1, hostOps1_2, hostOps1_3, hostOps1_4, hostOps1_5, hostOps1_6, hostOps1_7, hostOps1_8]) W (Proc.devRef .tc main_v23)
      = segsum (W (Proc.devRef .tc main_arg2)) (W (Proc.devRef .tc main_v2)) := by
  rw [flat_eq, Cert.Lib.HostFold.after_append, Cert.Lib.HostFold.after_append, c_sums, b_iota, b_rowBag, b_logits, a_iota, a_starts, a_logits]
  rfl

end Cert.KernelIdeal.Hand

end
-- ==== Proof.KernelRun.lean ====
/-
  The kernel program's run, read. Before the region the host rounds the two weight matrices to the short format, which
  at the ideal values changes nothing; the region leaves the result array at the specification's logits of the six
  arguments as launched; the operations after the region leave the per-bag sums at `segsum` of the bag sizes and those
  logits; and every argument ends as launched.
-/
import proofs.«108837_j82240033784369_2_alg».proof.Proof.KernelBlocks
import proofs.«108837_j82240033784369_2_alg».proof.Proof.KernelTail

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The first weight matrix as the region finds it is the argument: the host's rounding is the identity at the ideal values. -/
theorem V_w1 (c : Dev nD) :
    (V m c main_v0 : S1024x512.Idx → Elt Ideal .bf16) = (m ((c : Thread nD τ).loc main_arg3) : S1024x512.Idx → Elt Ideal .f32) := by
  show StableHlo.after hostOps0 (fun b => m (c, b)) (Proc.devRef .tc main_v0) = _
  after_results
  rfl

/-- The second weight matrix likewise. -/
theorem V_w2 (c : Dev nD) :
    (V m c main_v1 : S512x2.Idx → Elt Ideal .bf16) = (m ((c : Thread nD τ).loc main_arg5) : S512x2.Idx → Elt Ideal .f32) := by
  show StableHlo.after hostOps0 (fun b => m (c, b)) (Proc.devRef .tc main_v1) = _
  after_results
  rfl

/-- The specification's logits of the six arguments as launched. -/
abbrev patchM (c : Dev nD) : S131072x2.Idx → Elt Ideal .f32 :=
  Cert.GateMlp.logits (n := 131072) (m ((c : Thread nD τ).loc main_arg1) : S131072x1.Idx → Elt Ideal .f32)
    (m ((c : Thread nD τ).loc main_arg0) : S131072x1024.Idx → Elt Ideal .f32)
    (m ((c : Thread nD τ).loc main_arg3) : S1024x512.Idx → Elt Ideal .f32) (m ((c : Thread nD τ).loc main_arg4) : S512.Idx → Elt Ideal .f32)
    (m ((c : Thread nD τ).loc main_arg5) : S512x2.Idx → Elt Ideal .f32) (m ((c : Thread nD τ).loc main_arg6) : S2.Idx → Elt Ideal .f32)

/-- The arrays as the region finds them are the arguments as launched. -/
theorem patchV_eq (c : Dev nD) : patchV m c = patchM m c := by
  show Cert.GateMlp.logits (n := 131072) (V m c main_arg1 : S131072x1.Idx → Elt Ideal .f32) (V m c main_arg0 : S131072x1024.Idx → Elt Ideal .f32)
    (V m c main_v0 : S1024x512.Idx → Elt Ideal .bf16) (V m c main_arg4 : S512.Idx → Elt Ideal .f32)
    (V m c main_v1 : S512x2.Idx → Elt Ideal .bf16) (V m c main_arg6 : S2.Idx → Elt Ideal .f32) = _
  rw [V_main_arg1 m c, V_main_arg0 m c, V_w1 m c, V_main_arg4 m c, V_w2 m c, V_main_arg6 m c]

/-- What the operations after the region leave at the per-bag sums' buffer. -/
theorem tail_eq (c : Dev nD) :
    Pipeline.afterTail₀ cfgs (dats m) 0 (V0 m) [hostOps1, hostOps1_1, hostOps1_2, hostOps1_3, hostOps1_4, hostOps1_5, hostOps1_6, hostOps1_7, hostOps1_8] c main_v23
      = segsum (F := Ideal) (m ((c : Thread nD τ).loc main_arg2)) (patchM m c) := by
  unfold Pipeline.afterTail₀
  refine (tail_fold _).trans ?_
  have h1 := (Pipeline.withArrays_of_ne (cfgs 0).spec c (V0 m c) (fun w => (dats m 0 c).arrAt w (cfgs 0).N) main_arg2
    (by exact (by decide : ∀ w, Pipeline.arrRef spec0 w ≠ main_arg2))).trans (V_main_arg2 m c)
  have h2 := (Pipeline.withArrays_arr spec0 launch0.win.arr_inj c (V0 m c) (fun w => (dats m 0 c).arrAt w (cfgs 0).N) 6).trans
    ((final_logits m c).trans (patchV_eq m c))
  rw [h1]
  exact congrArg (segsum (F := Ideal) (m ((c : Thread nD τ).loc main_arg2))) h2

/-- THE RUN: every weakly fair execution terminates with the per-bag sums at `segsum` of the bag sizes and the logits,
    the patch logits at the specification's logits of the arguments, and the arguments unchanged. -/
theorem run : θ_run defs (onTc (τ := τ) (main (F := Ideal))) ⟨m, fun _ => 0, ρ⟩ fun r => ∀ c : Dev nD,
      r.2.mem ((c.tc : Thread nD τ).loc main_v23) = segsum (F := Ideal) (m ((c.tc : Thread nD τ).loc main_arg2)) (patchM m c)
      ∧ r.2.mem ((c.tc : Thread nD τ).loc main_v2) = patchM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v23 (Pipeline.mem_restRefs_of main_v23 (by decide) (by decide))).trans (tail_eq m c),
      ((h c).1 6).trans ((final_logits m c).trans (patchV_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c)))⟩)
    (run_main m ρ)

end Cert.KernelIdeal.Hand

end
-- ==== Proof.RefRun.lean ====
/-
  The reference program's run. @main of the reference is a straight line of StableHLO operations once
  the module-local functions it calls (@relu, @_roll_static, @cumsum -> @cumsum_0, @cumsum_1 -> @cumsum_2,
  @_take -> @_where) are unfolded at their call sites: sixty-nine operations. The first thirteen compute
  patch_logits = relu((attention * features) @ W1 + b1) @ W2 + b2; the remaining fifty-six turn the bag
  sizes into a bag index per patch (the sizes rolled by one with a zero written in front, their running
  sum = each bag's first row, a one scattered at each first row, the running sum of those minus one, read
  through @_take's bounds-checked gather of an iota) and scatter-add patch_logits into one row per bag.
  Every weakly fair execution terminates with each buffer at the fold of the operations over the launch
  contents; that fold at the two result buffers is the composed pure term of the arguments' contents,
  and every argument buffer is left as it was.
-/
import proofs.«108837_j82240033784369_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations up to the one that writes patch_logits (%10), @relu's three unfolded at its call. -/
abbrev opsHead : List (HloOp τ sig (Elt F)) :=
  [ StableHlo.unary main_arg1 main_v0 (broadcastInDim S131072x1024 ![0, 1] bcast_S131072x1_S131072x1024_0_1 : (⟨S131072x1, .f32⟩ : BufTy).Contents (Elt F) → (⟨S131072x1024, .f32⟩ : BufTy).Contents (Elt F)),
    StableHlo.binary main_v0 main_arg0 main_v1 (mulf : (⟨S131072x1024, .f32⟩ : BufTy).Contents (Elt F) → (⟨S131072x1024, .f32⟩ : BufTy).Contents (Elt F) → (⟨S131072x1024, .f32⟩ : BufTy).Contents (Elt F)),
    StableHlo.binary main_v1 main_arg3 main_v2 ((fun l r => Host.dotGeneral dot_S131072x1024_S1024x512_S131072x512_1_0_0_1_n_n none l r) : (⟨S131072x1024, .f32⟩ : BufTy).Contents (Elt F) → (⟨S1024x512, .f32⟩ : BufTy).Contents (Elt F) → (⟨S131072x512, .f32⟩ : BufTy).Contents (Elt F)),
    StableHlo.unary main_arg4 main_v3 (broadcastInDim S1x512 ![1] bcast_S512_S1x512_1 : (⟨S512, .f32⟩ : BufTy).Contents (Elt F) → (⟨S1x512, .f32⟩ : BufTy).Contents (Elt F)),
    StableHlo.unary main_v3 main_v4 (broadcastInDim S131072x512 ![0, 1] bcast_S1x512_S131072x512_0_1 : (⟨S1x512, .f32⟩ : BufTy).Contents (Elt F) → (⟨S131072x512, .f32⟩ : BufTy).Contents (Elt F)),
    StableHlo.binary main_v2 main_v4 main_v5 (addf : (⟨S131072x512, .f32⟩ : BufTy).Contents (Elt F) → (⟨S131072x512, .f32⟩ : BufTy).Contents (Elt F) → (⟨S131072x512, .f32⟩ : BufTy).Contents (Elt F)),
    StableHlo.TRef.nullary main_call0.cst (constant S_ .f32 0x00000000#32),
    StableHlo.TRef.unary main_call0.cst main_call0.v0 (broadcastInDim S131072x512 ![] bcast_S_S131072x512),
    StableHlo.TRef.binary (.of main_v5 : StableHlo.TRef sig ⟨S131072x512, .f32⟩) main_call0.v0 main_call0.v1 maximumf,
    StableHlo.binary main_v6 main_arg5 main_v7 ((fun l r => Host.dotGeneral dot_S131072x512_S512x2_S131072x2_1_0_0_1_n_n none l r) : (⟨S131072x512, .f32⟩ : BufTy).Contents (Elt F) → (⟨S512x2, .f32⟩ : BufTy).Contents (Elt F) → (⟨S131072x2, .f32⟩ : BufTy).Contents (Elt F)),
    StableHlo.unary main_arg6 main_v8 (broadcastInDim S1x2 ![1] bcast_S2_S1x2_1 : (⟨S2, .f32⟩ : BufTy).Contents (Elt F) → (⟨S1x2, .f32⟩ : BufTy).Contents (Elt F)),
    StableHlo.unary main_v8 main_v9 (broadcastInDim S131072x2 ![0, 1] bcast_S1x2_S131072x2_0_1 : (⟨S1x2, .f32⟩ : BufTy).Contents (Elt F) → (⟨S131072x2, .f32⟩ : BufTy).Contents (Elt F)),
    StableHlo.binary main_v7 main_v9 main_v10 (addf : (⟨S131072x2, .f32⟩ : BufTy).Contents (Elt F) → (⟨S131072x2, .f32⟩ : BufTy).Contents (Elt F) → (⟨S131072x2, .f32⟩ : BufTy).Contents (Elt F)) ]

/-- The remaining operations in order, from the iota (%11) to the scatter-add into %31, the four calls unfolded. -/
abbrev opsTail : List (HloOp τ sig (Elt F)) :=
  [ StableHlo.nullary main_v11 (iotaInDim S64 32 0),
    StableHlo.TRef.unary (.of main_arg2 : StableHlo.TRef sig ⟨S64, .i32⟩) main_call1.v0 (extractStridedSlice S1 ![63] · slices_S64_S1_63),
    StableHlo.TRef.unary (.of main_arg2 : StableHlo.TRef sig ⟨S64, .i32⟩) main_call1.v1 (extractStridedSlice S63 ![0] · slices_S64_S63_0),
    StableHlo.TRef.binary main_call1.v0 main_call1.v1 main_call1.v2 (fun a b => concatenate S64 0 [⟨S1, a⟩, ⟨S63, b⟩] concatenates_S1_S63_S64_d0),
    StableHlo.nullary main_c (constantI S_ 32 0#32),
    StableHlo.unary main_c main_v13 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v12 main_v13 main_c_0 main_v14 ((fun x i u => Host.scatter scatter_S64_S1_S__n_0_0_0 (fun _ b => b) x i u) : (⟨S64, .i32⟩ : BufTy).Contents (Elt F) → (⟨S1, .i32⟩ : BufTy).Contents (Elt F) → (⟨S_, .i32⟩ : BufTy).Contents (Elt F) → (⟨S64, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v14 : StableHlo.TRef sig ⟨S64, .i32⟩) main_call2.call0.v0 main_call2.call0.v1 (fun x v => Host.reduceWindow IntOp.addi ![64] ![1] ![63] ![0] x v reduceWindows_S64_S64_w64s1p63_0 h_S_),
    StableHlo.nullary main_c_1 (constantI S_ 32 0#32),
    StableHlo.unary main_c_1 main_v16 (broadcastInDim S131072 ![] bcast_S_S131072 : (⟨S_, .i32⟩ : BufTy).Contents (Elt F) → (⟨S131072, .i32⟩ : BufTy).Contents (Elt F)),
    StableHlo.nullary main_c_2 (constantI S_ 32 0#32),
    StableHlo.unary main_c_2 main_v17 (broadcastInDim S64 ![] bcast_S_S64 : (⟨S_, .i32⟩ : BufTy).Contents (Elt F) → (⟨S64, .i32⟩ : BufTy).Contents (Elt F)),
    StableHlo.binary main_v15 main_v17 main_v18 (cmpi .slt : (⟨S64, .i32⟩ : BufTy).Contents (Elt F) → (⟨S64, .i32⟩ : BufTy).Contents (Elt F) → (⟨S64, .i1⟩ : BufTy).Contents (Elt F)),
    StableHlo.nullary main_c_3 (constantI S_ 32 131072#32),
    StableHlo.unary main_c_3 main_v19 (broadcastInDim S64 ![] bcast_S_S64 : (⟨S_, .i32⟩ : BufTy).Contents (Elt F) → (⟨S64, .i32⟩ : BufTy).Contents (Elt F)),
    StableHlo.binary main_v15 main_v19 main_v20 (addi : (⟨S64, .i32⟩ : BufTy).Contents (Elt F) → (⟨S64, .i32⟩ : BufTy).Contents (Elt F) → (⟨S64, .i32⟩ : BufTy).Contents (Elt F)),
    StableHlo.ternary main_v18 main_v20 main_v15 main_v21 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v21 main_v22 (broadcastInDim S64x1 ![0] bcast_S64_S64x1_0 : (⟨S64, .i32⟩ : BufTy).Contents (Elt F) → (⟨S64x1, .i32⟩ : BufTy).Contents (Elt F)),
    StableHlo.nullary main_c_4 (constantI S_ 32 1#32),
    StableHlo.unary main_c_4 main_v23 (broadcastInDim S64 ![] bcast_S_S64 : (⟨S_, .i32⟩ : BufTy).Contents (Elt F) → (⟨S64, .i32⟩ : BufTy).Contents (Elt F)),
    StableHlo.ternary main_v16 main_v22 main_v23 main_v24 ((fun x i u => Host.scatter scatter_S131072_S64x1_S64_n_0_0_1 IntOp.addi x i u) : (⟨S131072, .i32⟩ : BufTy).Contents (Elt F) → (⟨S64x1, .i32⟩ : BufTy).Contents (Elt F) → (⟨S64, .i32⟩ : BufTy).Contents (Elt F) → (⟨S131072, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v24 : StableHlo.TRef sig ⟨S131072, .i32⟩) main_call3.call0.v0 main_call3.call0.v1 (fun x v => Host.reduceWindow IntOp.addi ![131072] ![1] ![131071] ![0] x v reduceWindows_S131072_S131072_w131072s1p131071_0 h_S_),
    StableHlo.nullary main_c_5 (constantI S_ 32 1#32),
    StableHlo.unary main_c_5 main_v26 (broadcastInDim S131072 ![] bcast_S_S131072 : (⟨S_, .i32⟩ : BufTy).Contents (Elt F) → (⟨S131072, .i32⟩ : BufTy).Contents (Elt F)),
    StableHlo.binary main_v25 main_v26 main_v27 (subi : (⟨S131072, .i32⟩ : BufTy).Contents (Elt F) → (⟨S131072, .i32⟩ : BufTy).Contents (Elt F) → (⟨S131072, .i32⟩ : BufTy).Contents (Elt F)),
    StableHlo.TRef.nullary main_call4.c (constantI S_ 32 0#32),
    StableHlo.TRef.unary main_call4.c main_call4.v0 (broadcastInDim S131072 ![] bcast_S_S131072),
    StableHlo.TRef.binary (.of main_v27 : StableHlo.TRef sig ⟨S131072, .i32⟩) main_call4.v0 main_call4.v1 (cmpi .slt),
    StableHlo.TRef.nullary main_call4.c_0 (constantI S_ 32 64#32),
    StableHlo.TRef.unary main_call4.c_0 main_call4.v2 (broadcastInDim S131072 ![] bcast_S_S131072),
    StableHlo.TRef.binary (.of main_v27 : StableHlo.TRef sig ⟨S131072, .i32⟩) main_call4.v2 main_call4.v3 addi,
    StableHlo.TRef.ternary main_call4.v1 main_call4.v3 (.of main_v27 : StableHlo.TRef sig ⟨S131072, .i32⟩) main_call4.call0.v0 select,
    StableHlo.TRef.unary main_call4.call0.v0 main_call4.v5 (broadcastInDim S131072x1 ![0] bcast_S131072_S131072x1_0),
    StableHlo.TRef.nullary main_call4.c_1 (constantI S1 32 63#32),
    StableHlo.TRef.nullary main_call4.c_2 (constantI S_ 32 0#32),
    StableHlo.TRef.unary main_call4.c_2 main_call4.v6 (broadcastInDim S131072x1 ![] bcast_S_S131072x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S131072x1 ![0, 1] bcast_S1x1_S131072x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S131072x1_S131072_d1 h_S_),
    StableHlo.TRef.binary (.of main_v11 : StableHlo.TRef sig ⟨S64, .i32⟩) main_call4.v5 main_call4.v13 (fun x i => Host.gather gather_S64_S131072x1_S131072_n_0_n_n_0_1_1 x i),
    StableHlo.TRef.nullary main_call4.c_4 (constantI S_ 32 2147483648#32),
    StableHlo.TRef.unary main_call4.c_4 main_call4.v14 (broadcastInDim S131072 ![] bcast_S_S131072),
    StableHlo.TRef.ternary main_call4.v12 main_call4.v13 main_call4.v14 main_call4.v15 select,
    StableHlo.nullary main_cst (constant S_ .f32 0x00000000#32),
    StableHlo.unary main_cst main_v29 (broadcastInDim S64x2 ![] bcast_S_S64x2 : (⟨S_, .f32⟩ : BufTy).Contents (Elt F) → (⟨S64x2, .f32⟩ : BufTy).Contents (Elt F)),
    StableHlo.unary main_v28 main_v30 (broadcastInDim S131072x1 ![0] bcast_S131072_S131072x1_0 : (⟨S131072, .i32⟩ : BufTy).Contents (Elt F) → (⟨S131072x1, .i32⟩ : BufTy).Contents (Elt F)),
    StableHlo.ternary main_v29 main_v30 main_v10 main_v31 ((fun x i u => Host.scatterAdd scatter_S64x2_S131072x1_S131072x2_1_0_0_1 x i u) : (⟨S64x2, .f32⟩ : BufTy).Contents (Elt F) → (⟨S131072x1, .i32⟩ : BufTy).Contents (Elt F) → (⟨S131072x2, .f32⟩ : BufTy).Contents (Elt F) → (⟨S64x2, .f32⟩ : BufTy).Contents (Elt F)) ]

/-- @main's sixty-nine operations, in order. -/
abbrev ops : List (HloOp τ sig (Elt F)) := opsHead ++ opsTail

-- the two sides differ by the callees' definitions unfolded at their calls and the sequencing reassociated, both by computation
set_option maxRecDepth 8192 in
set_option maxHeartbeats 1600000 in
/-- @main is that straight line, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsHead_sub : (opsHead : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem opsTail_sub : (opsTail : List (HloOp τ sig (Elt F))).Forall fun op => op.bufs ⊆ tcRefs τ sig :=
  ⟨nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., unary_bufs_sub .., ternary_bufs_sub ..⟩

theorem ops_sub : (ops : List (HloOp τ sig (Elt F))).Forall fun op => op.bufs ⊆ tcRefs τ sig :=
  List.forall_append.mpr ⟨opsHead_sub, opsTail_sub⟩

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRunValue.lean ====
/-
  The reference's run, read at its results. The first thirteen operations leave the patch logits at `patch` of the six
  dense arguments: the gate laid across the columns times the features, the first matrix product and its bias, the
  maximum with zero, the second matrix product and its bias. The remaining fifty-six leave the per-bag sums at
  `segsum` of the bag sizes and the patch logits: each row's bag index (the sizes rolled by one place with a zero in
  front, their running sum — each bag's first row —, a one scattered at each first row, the running sum of those minus
  one, read through `arange(64)` with out-of-range rows sent to the least integer), then the rows scatter-added at their
  bag index over zeros. That line is read in three stretches, each over a variable valuation. No operation writes an
  argument.
-/
import proofs.«108837_j82240033784369_2_alg».proof.Proof.RefRun
import proofs.«108837_j82240033784369_2_alg».proof.Proof.LibHostFold

set_option pp.deepTerms false
set_option pp.maxSteps 3000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- The patch logits of the six dense arguments, in the program's own operations. -/
def patch (att : (⟨S131072x1, .f32⟩ : BufTy).Contents (Elt F)) (feat : (⟨S131072x1024, .f32⟩ : BufTy).Contents (Elt F))
    (w1 : (⟨S1024x512, .f32⟩ : BufTy).Contents (Elt F)) (b1 : (⟨S512, .f32⟩ : BufTy).Contents (Elt F))
    (w2 : (⟨S512x2, .f32⟩ : BufTy).Contents (Elt F)) (b2 : (⟨S2, .f32⟩ : BufTy).Contents (Elt F)) : (⟨S131072x2, .f32⟩ : BufTy).Contents (Elt F) :=
  addf (Host.dotGeneral dot_S131072x512_S512x2_S131072x2_1_0_0_1_n_n none (maximumf (addf (Host.dotGeneral dot_S131072x1024_S1024x512_S131072x512_1_0_0_1_n_n none (mulf (broadcastInDim S131072x1024 ![0, 1] bcast_S131072x1_S131072x1024_0_1 att) feat) w1) (broadcastInDim S131072x512 ![0, 1] bcast_S1x512_S131072x512_0_1 (broadcastInDim S1x512 ![1] bcast_S512_S1x512_1 b1))) (broadcastInDim S131072x512 ![] bcast_S_S131072x512 (constant S_ .f32 0x00000000#32))) w2) (broadcastInDim S131072x2 ![0, 1] bcast_S1x2_S131072x2_0_1 (broadcastInDim S1x2 ![1] bcast_S2_S1x2_1 b2))

/-- The bag sizes rolled by one place (the last first), then a zero written at place 0. -/
def shifted (bag : (⟨S64, .i32⟩ : BufTy).Contents (Elt F)) : (⟨S64, .i32⟩ : BufTy).Contents (Elt F) :=
  Host.scatter scatter_S64_S1_S__n_0_0_0 (fun _ b => b)
    (concatenate S64 0 [⟨S1, extractStridedSlice S1 ![63] bag slices_S64_S1_63⟩, ⟨S63, extractStridedSlice S63 ![0] bag slices_S64_S63_0⟩] concatenates_S1_S63_S64_d0)
    (broadcastInDim S1 ![] bcast_S_S1 (constantI S_ 32 0#32)) (constantI S_ 32 0#32)

/-- Its running sum: each bag's first row. -/
def starts (bag : (⟨S64, .i32⟩ : BufTy).Contents (Elt F)) : (⟨S64, .i32⟩ : BufTy).Contents (Elt F) :=
  Host.reduceWindow IntOp.addi ![64] ![1] ![63] ![0] (shifted bag) (broadcastInDim S_ ![] bcast_S_S_ (constantI S_ 32 0#32)) reduceWindows_S64_S64_w64s1p63_0 h_S_

/-- From the bags' first rows `s`: a one added at each first row (a negative row first wrapped by 131072), over zeros. -/
def marksOf (s : (⟨S64, .i32⟩ : BufTy).Contents (Elt F)) : (⟨S131072, .i32⟩ : BufTy).Contents (Elt F) :=
  Host.scatter scatter_S131072_S64x1_S64_n_0_0_1 IntOp.addi
    (broadcastInDim S131072 ![] bcast_S_S131072 (constantI S_ 32 0#32))
    (broadcastInDim S64x1 ![0] bcast_S64_S64x1_0
      (select (cmpi .slt s (broadcastInDim S64 ![] bcast_S_S64 (constantI S_ 32 0#32)))
        (addi s (broadcastInDim S64 ![] bcast_S_S64 (constantI S_ 32 131072#32))) s))
    (broadcastInDim S64 ![] bcast_S_S64 (constantI S_ 32 1#32))

/-- The running sum of those marks minus one: each row's bag. -/
def rowBagOf (s : (⟨S64, .i32⟩ : BufTy).Contents (Elt F)) : (⟨S131072, .i32⟩ : BufTy).Contents (Elt F) :=
  subi (Host.reduceWindow IntOp.addi ![131072] ![1] ![131071] ![0] (marksOf s) (broadcastInDim S_ ![] bcast_S_S_ (constantI S_ 32 0#32)) reduceWindows_S131072_S131072_w131072s1p131071_0 h_S_)
    (broadcastInDim S131072 ![] bcast_S_S131072 (constantI S_ 32 1#32))

/-- An index, a negative one wrapped by 64, as a column. -/
def takeIdx (idx : (⟨S131072, .i32⟩ : BufTy).Contents (Elt F)) : (⟨S131072x1, .i32⟩ : BufTy).Contents (Elt F) :=
  broadcastInDim S131072x1 ![0] bcast_S131072_S131072x1_0
    (select (cmpi .slt idx (broadcastInDim S131072 ![] bcast_S_S131072 (constantI S_ 32 0#32)))
      (addi idx (broadcastInDim S131072 ![] bcast_S_S131072 (constantI S_ 32 64#32))) idx)

/-- The gather of `x` at the wrapped index where that index lies in 0 … 63, the least integer elsewhere. -/
def takeAt (x : (⟨S64, .i32⟩ : BufTy).Contents (Elt F)) (idx : (⟨S131072, .i32⟩ : BufTy).Contents (Elt F)) : (⟨S131072, .i32⟩ : BufTy).Contents (Elt F) :=
  select
    (Host.reduce IntOp.andi
      (andi (cmpi .sge (takeIdx idx) (broadcastInDim S131072x1 ![] bcast_S_S131072x1 (constantI S_ 32 0#32)))
        (cmpi .sle (takeIdx idx) (broadcastInDim S131072x1 ![0, 1] bcast_S1x1_S131072x1_0_1 (broadcastInDim S1x1 ![1] bcast_S1_S1x1_1 (constantI S1 32 63#32)))))
      (constantI S_ 1 1#1) reducesTo_S131072x1_S131072_d1 h_S_)
    (Host.gather gather_S64_S131072x1_S131072_n_0_n_n_0_1_1 x (takeIdx idx))
    (broadcastInDim S131072 ![] bcast_S_S131072 (constantI S_ 32 2147483648#32))

/-- The scatter-add of the rows of `pl` at the bag indices `ids` over zeros. -/
def sumAt (ids : (⟨S131072, .i32⟩ : BufTy).Contents (Elt F)) (pl : (⟨S131072x2, .f32⟩ : BufTy).Contents (Elt F)) : (⟨S64x2, .f32⟩ : BufTy).Contents (Elt F) :=
  Host.scatterAdd scatter_S64x2_S131072x1_S131072x2_1_0_0_1
    (broadcastInDim S64x2 ![] bcast_S_S64x2 (constant S_ .f32 0x00000000#32))
    (broadcastInDim S131072x1 ![0] bcast_S131072_S131072x1_0 ids) pl

/-- Each row's bag index: `arange(64)` read at each row's bag. -/
def segIds (bag : (⟨S64, .i32⟩ : BufTy).Contents (Elt F)) : (⟨S131072, .i32⟩ : BufTy).Contents (Elt F) :=
  takeAt (iotaInDim S64 32 0) (rowBagOf (starts bag))

/-- The per-bag sums: the rows of `pl` scatter-added at their bag index over zeros. -/
def segsum (bag : (⟨S64, .i32⟩ : BufTy).Contents (Elt F)) (pl : (⟨S131072x2, .f32⟩ : BufTy).Contents (Elt F)) : (⟨S64x2, .f32⟩ : BufTy).Contents (Elt F) :=
  sumAt (segIds bag) pl

/-! ## The line after the patch logits, in three stretches -/

/-- Up to the bags' first rows. -/
abbrev tailA : List (HloOp τ sig (Elt F)) :=
  [ StableHlo.nullary main_v11 (iotaInDim S64 32 0),
    StableHlo.TRef.unary (.of main_arg2 : StableHlo.TRef sig ⟨S64, .i32⟩) main_call1.v0 (extractStridedSlice S1 ![63] · slices_S64_S1_63),
    StableHlo.TRef.unary (.of main_arg2 : StableHlo.TRef sig ⟨S64, .i32⟩) main_call1.v1 (extractStridedSlice S63 ![0] · slices_S64_S63_0),
    StableHlo.TRef.binary main_call1.v0 main_call1.v1 main_call1.v2 (fun a b => concatenate S64 0 [⟨S1, a⟩, ⟨S63, b⟩] concatenates_S1_S63_S64_d0),
    StableHlo.nullary main_c (constantI S_ 32 0#32),
    StableHlo.unary main_c main_v13 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v12 main_v13 main_c_0 main_v14 ((fun x i u => Host.scatter scatter_S64_S1_S__n_0_0_0 (fun _ b => b) x i u) : (⟨S64, .i32⟩ : BufTy).Contents (Elt F) → (⟨S1, .i32⟩ : BufTy).Contents (Elt F) → (⟨S_, .i32⟩ : BufTy).Contents (Elt F) → (⟨S64, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v14 : StableHlo.TRef sig ⟨S64, .i32⟩) main_call2.call0.v0 main_call2.call0.v1 (fun x v => Host.reduceWindow IntOp.addi ![64] ![1] ![63] ![0] x v reduceWindows_S64_S64_w64s1p63_0 h_S_) ]

/-- Up to each row's bag. -/
abbrev tailB : List (HloOp τ sig (Elt F)) :=
  [ StableHlo.nullary main_c_1 (constantI S_ 32 0#32),
    StableHlo.unary main_c_1 main_v16 (broadcastInDim S131072 ![] bcast_S_S131072 : (⟨S_, .i32⟩ : BufTy).Contents (Elt F) → (⟨S131072, .i32⟩ : BufTy).Contents (Elt F)),
    StableHlo.nullary main_c_2 (constantI S_ 32 0#32),
    StableHlo.unary main_c_2 main_v17 (broadcastInDim S64 ![] bcast_S_S64 : (⟨S_, .i32⟩ : BufTy).Contents (Elt F) → (⟨S64, .i32⟩ : BufTy).Contents (Elt F)),
    StableHlo.binary main_v15 main_v17 main_v18 (cmpi .slt : (⟨S64, .i32⟩ : BufTy).Contents (Elt F) → (⟨S64, .i32⟩ : BufTy).Contents (Elt F) → (⟨S64, .i1⟩ : BufTy).Contents (Elt F)),
    StableHlo.nullary main_c_3 (constantI S_ 32 131072#32),
    StableHlo.unary main_c_3 main_v19 (broadcastInDim S64 ![] bcast_S_S64 : (⟨S_, .i32⟩ : BufTy).Contents (Elt F) → (⟨S64, .i32⟩ : BufTy).Contents (Elt F)),
    StableHlo.binary main_v15 main_v19 main_v20 (addi : (⟨S64, .i32⟩ : BufTy).Contents (Elt F) → (⟨S64, .i32⟩ : BufTy).Contents (Elt F) → (⟨S64, .i32⟩ : BufTy).Contents (Elt F)),
    StableHlo.ternary main_v18 main_v20 main_v15 main_v21 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v21 main_v22 (broadcastInDim S64x1 ![0] bcast_S64_S64x1_0 : (⟨S64, .i32⟩ : BufTy).Contents (Elt F) → (⟨S64x1, .i32⟩ : BufTy).Contents (Elt F)),
    StableHlo.nullary main_c_4 (constantI S_ 32 1#32),
    StableHlo.unary main_c_4 main_v23 (broadcastInDim S64 ![] bcast_S_S64 : (⟨S_, .i32⟩ : BufTy).Contents (Elt F) → (⟨S64, .i32⟩ : BufTy).Contents (Elt F)),
    StableHlo.ternary main_v16 main_v22 main_v23 main_v24 ((fun x i u => Host.scatter scatter_S131072_S64x1_S64_n_0_0_1 IntOp.addi x i u) : (⟨S131072, .i32⟩ : BufTy).Contents (Elt F) → (⟨S64x1, .i32⟩ : BufTy).Contents (Elt F) → (⟨S64, .i32⟩ : BufTy).Contents (Elt F) → (⟨S131072, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v24 : StableHlo.TRef sig ⟨S131072, .i32⟩) main_call3.call0.v0 main_call3.call0.v1 (fun x v => Host.reduceWindow IntOp.addi ![131072] ![1] ![131071] ![0] x v reduceWindows_S131072_S131072_w131072s1p131071_0 h_S_),
    StableHlo.nullary main_c_5 (constantI S_ 32 1#32),
    StableHlo.unary main_c_5 main_v26 (broadcastInDim S131072 ![] bcast_S_S131072 : (⟨S_, .i32⟩ : BufTy).Contents (Elt F) → (⟨S131072, .i32⟩ : BufTy).Contents (Elt F)),
    StableHlo.binary main_v25 main_v26 main_v27 (subi : (⟨S131072, .i32⟩ : BufTy).Contents (Elt F) → (⟨S131072, .i32⟩ : BufTy).Contents (Elt F) → (⟨S131072, .i32⟩ : BufTy).Contents (Elt F)) ]

/-- The gather through `arange(64)` and the scatter-add. -/
abbrev tailC : List (HloOp τ sig (Elt F)) :=
  [ StableHlo.TRef.nullary main_call4.c (constantI S_ 32 0#32),
    StableHlo.TRef.unary main_call4.c main_call4.v0 (broadcastInDim S131072 ![] bcast_S_S131072),
    StableHlo.TRef.binary (.of main_v27 : StableHlo.TRef sig ⟨S131072, .i32⟩) main_call4.v0 main_call4.v1 (cmpi .slt),
    StableHlo.TRef.nullary main_call4.c_0 (constantI S_ 32 64#32),
    StableHlo.TRef.unary main_call4.c_0 main_call4.v2 (broadcastInDim S131072 ![] bcast_S_S131072),
    StableHlo.TRef.binary (.of main_v27 : StableHlo.TRef sig ⟨S131072, .i32⟩) main_call4.v2 main_call4.v3 addi,
    StableHlo.TRef.ternary main_call4.v1 main_call4.v3 (.of main_v27 : StableHlo.TRef sig ⟨S131072, .i32⟩) main_call4.call0.v0 select,
    StableHlo.TRef.unary main_call4.call0.v0 main_call4.v5 (broadcastInDim S131072x1 ![0] bcast_S131072_S131072x1_0),
    StableHlo.TRef.nullary main_call4.c_1 (constantI S1 32 63#32),
    StableHlo.TRef.nullary main_call4.c_2 (constantI S_ 32 0#32),
    StableHlo.TRef.unary main_call4.c_2 main_call4.v6 (broadcastInDim S131072x1 ![] bcast_S_S131072x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S131072x1 ![0, 1] bcast_S1x1_S131072x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S131072x1_S131072_d1 h_S_),
    StableHlo.TRef.binary (.of main_v11 : StableHlo.TRef sig ⟨S64, .i32⟩) main_call4.v5 main_call4.v13 (fun x i => Host.gather gather_S64_S131072x1_S131072_n_0_n_n_0_1_1 x i),
    StableHlo.TRef.nullary main_call4.c_4 (constantI S_ 32 2147483648#32),
    StableHlo.TRef.unary main_call4.c_4 main_call4.v14 (broadcastInDim S131072 ![] bcast_S_S131072),
    StableHlo.TRef.ternary main_call4.v12 main_call4.v13 main_call4.v14 main_call4.v15 select,
    StableHlo.nullary main_cst (constant S_ .f32 0x00000000#32),
    StableHlo.unary main_cst main_v29 (broadcastInDim S64x2 ![] bcast_S_S64x2 : (⟨S_, .f32⟩ : BufTy).Contents (Elt F) → (⟨S64x2, .f32⟩ : BufTy).Contents (Elt F)),
    StableHlo.unary main_v28 main_v30 (broadcastInDim S131072x1 ![0] bcast_S131072_S131072x1_0 : (⟨S131072, .i32⟩ : BufTy).Contents (Elt F) → (⟨S131072x1, .i32⟩ : BufTy).Contents (Elt F)),
    StableHlo.ternary main_v29 main_v30 main_v10 main_v31 ((fun x i u => Host.scatterAdd scatter_S64x2_S131072x1_S131072x2_1_0_0_1 x i u) : (⟨S64x2, .f32⟩ : BufTy).Contents (Elt F) → (⟨S131072x1, .i32⟩ : BufTy).Contents (Elt F) → (⟨S131072x2, .f32⟩ : BufTy).Contents (Elt F) → (⟨S64x2, .f32⟩ : BufTy).Contents (Elt F)) ]

theorem tail_split : (opsTail : List (HloOp τ sig (Elt F))) = tailA ++ (tailB ++ tailC) := rfl

theorem after_ops (V : Valuation τ sig (Elt F)) : after ops V = after opsTail (after opsHead V) :=
  Cert.Lib.HostFold.after_append opsHead opsTail V

/-! ### The first thirteen operations -/

theorem head_v10 (V : Valuation τ sig (Elt F)) :
    after opsHead V (Proc.devRef .tc main_v10) = patch (V (Proc.devRef .tc main_arg1)) (V (Proc.devRef .tc main_arg0)) (V (Proc.devRef .tc main_arg3)) (V (Proc.devRef .tc main_arg4)) (V (Proc.devRef .tc main_arg5)) (V (Proc.devRef .tc main_arg6)) := by
  unfold patch
  simp only [opsHead, TRef.nullary, TRef.unary, TRef.binary, TRef.ternary]
  after_results_simp
  first | done | (simp only [cast_eq]; done) | fail "head_v10"

theorem head_arg0 (V : Valuation τ sig (Elt F)) : after opsHead V (Proc.devRef .tc main_arg0) = V (Proc.devRef .tc main_arg0) := by
  simp only [opsHead, TRef.nullary, TRef.unary, TRef.binary, TRef.ternary]
  after_results_simp
  first | done | (simp only [cast_eq]; done) | fail "head_arg0"
theorem head_arg1 (V : Valuation τ sig (Elt F)) : after opsHead V (Proc.devRef .tc main_arg1) = V (Proc.devRef .tc main_arg1) := by
  simp only [opsHead, TRef.nullary, TRef.unary, TRef.binary, TRef.ternary]
  after_results_simp
  first | done | (simp only [cast_eq]; done) | fail "head_arg1"
theorem head_arg2 (V : Valuation τ sig (Elt F)) : after opsHead V (Proc.devRef .tc main_arg2) = V (Proc.devRef .tc main_arg2) := by
  simp only [opsHead, TRef.nullary, TRef.unary, TRef.binary, TRef.ternary]
  after_results_simp
  first | done | (simp only [cast_eq]; done) | fail "head_arg2"
theorem head_arg3 (V : Valuation τ sig (Elt F)) : after opsHead V (Proc.devRef .tc main_arg3) = V (Proc.devRef .tc main_arg3) := by
  simp only [opsHead, TRef.nullary, TRef.unary, TRef.binary, TRef.ternary]
  after_results_simp
  first | done | (simp only [cast_eq]; done) | fail "head_arg3"
theorem head_arg4 (V : Valuation τ sig (Elt F)) : after opsHead V (Proc.devRef .tc main_arg4) = V (Proc.devRef .tc main_arg4) := by
  simp only [opsHead, TRef.nullary, TRef.unary, TRef.binary, TRef.ternary]
  after_results_simp
  first | done | (simp only [cast_eq]; done) | fail "head_arg4"
theorem head_arg5 (V : Valuation τ sig (Elt F)) : after opsHead V (Proc.devRef .tc main_arg5) = V (Proc.devRef .tc main_arg5) := by
  simp only [opsHead, TRef.nullary, TRef.unary, TRef.binary, TRef.ternary]
  after_results_simp
  first | done | (simp only [cast_eq]; done) | fail "head_arg5"
theorem head_arg6 (V : Valuation τ sig (Elt F)) : after opsHead V (Proc.devRef .tc main_arg6) = V (Proc.devRef .tc main_arg6) := by
  simp only [opsHead, TRef.nullary, TRef.unary, TRef.binary, TRef.ternary]
  after_results_simp
  first | done | (simp only [cast_eq]; done) | fail "head_arg6"

/-! ### The first stretch of the rest -/

theorem a_starts (W : Valuation τ sig (Elt F)) : after tailA W (Proc.devRef .tc main_v15) = starts (W (Proc.devRef .tc main_arg2)) := by
  unfold starts shifted
  simp only [tailA, TRef.nullary, TRef.unary, TRef.binary, TRef.ternary]
  after_results_simp
  repeat (first
    | rw [unary_result] | rw [nullary_result]
    | (rw [unary_result_ne]; rotate_left; decide)
    | (rw [nullary_result_ne]; rotate_left; decide))
  first | done | (simp only [cast_eq]; done) | fail "a_starts"

theorem a_iota (W : Valuation τ sig (Elt F)) : after tailA W (Proc.devRef .tc main_v11) = iotaInDim S64 32 0 := by
  simp only [tailA, TRef.nullary, TRef.unary, TRef.binary, TRef.ternary]
  after_results_simp
  first | done | (simp only [cast_eq]; done) | fail "a_iota"

theorem a_logits (W : Valuation τ sig (Elt F)) : after tailA W (Proc.devRef .tc main_v10) = W (Proc.devRef .tc main_v10) := by
  simp only [tailA, TRef.nullary, TRef.unary, TRef.binary, TRef.ternary]
  after_results_simp
  first | done | (simp only [cast_eq]; done) | fail "a_logits"
theorem a_arg0 (W : Valuation τ sig (Elt F)) : after tailA W (Proc.devRef .tc main_arg0) = W (Proc.devRef .tc main_arg0) := by
  simp only [tailA, TRef.nullary, TRef.unary, TRef.binary, TRef.ternary]
  after_results_simp
  first | done | (simp only [cast_eq]; done) | fail "a_arg0"
theorem a_arg1 (W : Valuation τ sig (Elt F)) : after tailA W (Proc.devRef .tc main_arg1) = W (Proc.devRef .tc main_arg1) := by
  simp only [tailA, TRef.nullary, TRef.unary, TRef.binary, TRef.ternary]
  after_results_simp
  first | done | (simp only [cast_eq]; done) | fail "a_arg1"
theorem a_arg2 (W : Valuation τ sig (Elt F)) : after tailA W (Proc.devRef .tc main_arg2) = W (Proc.devRef .tc main_arg2) := by
  simp only [tailA, TRef.nullary, TRef.unary, TRef.binary, TRef.ternary]
  after_results_simp
  first | done | (simp only [cast_eq]; done) | fail "a_arg2"
theorem a_arg3 (W : Valuation τ sig (Elt F)) : after tailA W (Proc.devRef .tc main_arg3) = W (Proc.devRef .tc main_arg3) := by
  simp only [tailA, TRef.nullary, TRef.unary, TRef.binary, TRef.ternary]
  after_results_simp
  first | done | (simp only [cast_eq]; done) | fail "a_arg3"
theorem a_arg4 (W : Valuation τ sig (Elt F)) : after tailA W (Proc.devRef .tc main_arg4) = W (Proc.devRef .tc main_arg4) := by
  simp only [tailA, TRef.nullary, TRef.unary, TRef.binary, TRef.ternary]
  after_results_simp
  first | done | (simp only [cast_eq]; done) | fail "a_arg4"
theorem a_arg5 (W : Valuation τ sig (Elt F)) : after tailA W (Proc.devRef .tc main_arg5) = W (Proc.devRef .tc main_arg5) := by
  simp only [tailA, TRef.nullary, TRef.unary, TRef.binary, TRef.ternary]
  after_results_simp
  first | done | (simp only [cast_eq]; done) | fail "a_arg5"
theorem a_arg6 (W : Valuation τ sig (Elt F)) : after tailA W (Proc.devRef .tc main_arg6) = W (Proc.devRef .tc main_arg6) := by
  simp only [tailA, TRef.nullary, TRef.unary, TRef.binary, TRef.ternary]
  after_results_simp
  first | done | (simp only [cast_eq]; done) | fail "a_arg6"

/-! ### The second stretch -/

theorem b_rowBag (U : Valuation τ sig (Elt F)) : after tailB U (Proc.devRef .tc main_v27) = rowBagOf (U (Proc.devRef .tc main_v15)) := by
  unfold rowBagOf marksOf
  simp only [tailB, TRef.nullary, TRef.unary, TRef.binary, TRef.ternary]
  after_results_simp
  first | done | (simp only [cast_eq]; done) | fail "b_rowBag"

theorem b_iota (U : Valuation τ sig (Elt F)) : after tailB U (Proc.devRef .tc main_v11) = U (Proc.devRef .tc main_v11) := by
  simp only [tailB, TRef.nullary, TRef.unary, TRef.binary, TRef.ternary]
  after_results_simp
  first | done | (simp only [cast_eq]; done) | fail "b_iota"
theorem b_logits (U : Valuation τ sig (Elt F)) : after tailB U (Proc.devRef .tc main_v10) = U (Proc.devRef .tc main_v10) := by
  simp only [tailB, TRef.nullary, TRef.unary, TRef.binary, TRef.ternary]
  after_results_simp
  first | done | (simp only [cast_eq]; done) | fail "b_logits"
theorem b_arg0 (U : Valuation τ sig (Elt F)) : after tailB U (Proc.devRef .tc main_arg0) = U (Proc.devRef .tc main_arg0) := by
  simp only [tailB, TRef.nullary, TRef.unary, TRef.binary, TRef.ternary]
  after_results_simp
  first | done | (simp only [cast_eq]; done) | fail "b_arg0"
theorem b_arg1 (U : Valuation τ sig (Elt F)) : after tailB U (Proc.devRef .tc main_arg1) = U (Proc.devRef .tc main_arg1) := by
  simp only [tailB, TRef.nullary, TRef.unary, TRef.binary, TRef.ternary]
  after_results_simp
  first | done | (simp only [cast_eq]; done) | fail "b_arg1"
theorem b_arg2 (U : Valuation τ sig (Elt F)) : after tailB U (Proc.devRef .tc main_arg2) = U (Proc.devRef .tc main_arg2) := by
  simp only [tailB, TRef.nullary, TRef.unary, TRef.binary, TRef.ternary]
  after_results_simp
  first | done | (simp only [cast_eq]; done) | fail "b_arg2"
theorem b_arg3 (U : Valuation τ sig (Elt F)) : after tailB U (Proc.devRef .tc main_arg3) = U (Proc.devRef .tc main_arg3) := by
  simp only [tailB, TRef.nullary, TRef.unary, TRef.binary, TRef.ternary]
  after_results_simp
  first | done | (simp only [cast_eq]; done) | fail "b_arg3"
theorem b_arg4 (U : Valuation τ sig (Elt F)) : after tailB U (Proc.devRef .tc main_arg4) = U (Proc.devRef .tc main_arg4) := by
  simp only [tailB, TRef.nullary, TRef.unary, TRef.binary, TRef.ternary]
  after_results_simp
  first | done | (simp only [cast_eq]; done) | fail "b_arg4"
theorem b_arg5 (U : Valuation τ sig (Elt F)) : after tailB U (Proc.devRef .tc main_arg5) = U (Proc.devRef .tc main_arg5) := by
  simp only [tailB, TRef.nullary, TRef.unary, TRef.binary, TRef.ternary]
  after_results_simp
  first | done | (simp only [cast_eq]; done) | fail "b_arg5"
theorem b_arg6 (U : Valuation τ sig (Elt F)) : after tailB U (Proc.devRef .tc main_arg6) = U (Proc.devRef .tc main_arg6) := by
  simp only [tailB, TRef.nullary, TRef.unary, TRef.binary, TRef.ternary]
  after_results_simp
  first | done | (simp only [cast_eq]; done) | fail "b_arg6"

/-! ### The third stretch -/

theorem c_sums (U : Valuation τ sig (Elt F)) :
    after tailC U (Proc.devRef .tc main_v31)
      = sumAt (takeAt (U (Proc.devRef .tc main_v11)) (U (Proc.devRef .tc main_v27))) (U (Proc.devRef .tc main_v10)) := by
  unfold sumAt takeAt takeIdx
  simp only [tailC, TRef.nullary, TRef.unary, TRef.binary, TRef.ternary]
  after_results_simp
  first | done | (simp only [cast_eq]; done) | fail "c_sums"

theorem c_logits (U : Valuation τ sig (Elt F)) : after tailC U (Proc.devRef .tc main_v10) = U (Proc.devRef .tc main_v10) := by
  simp only [tailC, TRef.nullary, TRef.unary, TRef.binary, TRef.ternary]
  after_results_simp
  first | done | (simp only [cast_eq]; done) | fail "c_logits"
theorem c_arg0 (U : Valuation τ sig (Elt F)) : after tailC U (Proc.devRef .tc main_arg0) = U (Proc.devRef .tc main_arg0) := by
  simp only [tailC, TRef.nullary, TRef.unary, TRef.binary, TRef.ternary]
  after_results_simp
  first | done | (simp only [cast_eq]; done) | fail "c_arg0"
theorem c_arg1 (U : Valuation τ sig (Elt F)) : after tailC U (Proc.devRef .tc main_arg1) = U (Proc.devRef .tc main_arg1) := by
  simp only [tailC, TRef.nullary, TRef.unary, TRef.binary, TRef.ternary]
  after_results_simp
  first | done | (simp only [cast_eq]; done) | fail "c_arg1"
theorem c_arg2 (U : Valuation τ sig (Elt F)) : after tailC U (Proc.devRef .tc main_arg2) = U (Proc.devRef .tc main_arg2) := by
  simp only [tailC, TRef.nullary, TRef.unary, TRef.binary, TRef.ternary]
  after_results_simp
  first | done | (simp only [cast_eq]; done) | fail "c_arg2"
theorem c_arg3 (U : Valuation τ sig (Elt F)) : after tailC U (Proc.devRef .tc main_arg3) = U (Proc.devRef .tc main_arg3) := by
  simp only [tailC, TRef.nullary, TRef.unary, TRef.binary, TRef.ternary]
  after_results_simp
  first | done | (simp only [cast_eq]; done) | fail "c_arg3"
theorem c_arg4 (U : Valuation τ sig (Elt F)) : after tailC U (Proc.devRef .tc main_arg4) = U (Proc.devRef .tc main_arg4) := by
  simp only [tailC, TRef.nullary, TRef.unary, TRef.binary, TRef.ternary]
  after_results_simp
  first | done | (simp only [cast_eq]; done) | fail "c_arg4"
theorem c_arg5 (U : Valuation τ sig (Elt F)) : after tailC U (Proc.devRef .tc main_arg5) = U (Proc.devRef .tc main_arg5) := by
  simp only [tailC, TRef.nullary, TRef.unary, TRef.binary, TRef.ternary]
  after_results_simp
  first | done | (simp only [cast_eq]; done) | fail "c_arg5"
theorem c_arg6 (U : Valuation τ sig (Elt F)) : after tailC U (Proc.devRef .tc main_arg6) = U (Proc.devRef .tc main_arg6) := by
  simp only [tailC, TRef.nullary, TRef.unary, TRef.binary, TRef.ternary]
  after_results_simp
  first | done | (simp only [cast_eq]; done) | fail "c_arg6"

/-! ### The rest of the line, whole -/

theorem tail_v31 (W : Valuation τ sig (Elt F)) :
    after opsTail W (Proc.devRef .tc main_v31) = segsum (W (Proc.devRef .tc main_arg2)) (W (Proc.devRef .tc main_v10)) := by
  rw [tail_split, Cert.Lib.HostFold.after_append, Cert.Lib.HostFold.after_append, c_sums, b_iota, b_rowBag, b_logits, a_iota, a_starts, a_logits]
  rfl

theorem tail_v10 (W : Valuation τ sig (Elt F)) : after opsTail W (Proc.devRef .tc main_v10) = W (Proc.devRef .tc main_v10) := by
  rw [tail_split, Cert.Lib.HostFold.after_append, Cert.Lib.HostFold.after_append, c_logits, b_logits, a_logits]

theorem tail_arg0 (W : Valuation τ sig (Elt F)) : after opsTail W (Proc.devRef .tc main_arg0) = W (Proc.devRef .tc main_arg0) := by
  rw [tail_split, Cert.Lib.HostFold.after_append, Cert.Lib.HostFold.after_append, c_arg0, b_arg0, a_arg0]
theorem tail_arg1 (W : Valuation τ sig (Elt F)) : after opsTail W (Proc.devRef .tc main_arg1) = W (Proc.devRef .tc main_arg1) := by
  rw [tail_split, Cert.Lib.HostFold.after_append, Cert.Lib.HostFold.after_append, c_arg1, b_arg1, a_arg1]
theorem tail_arg2 (W : Valuation τ sig (Elt F)) : after opsTail W (Proc.devRef .tc main_arg2) = W (Proc.devRef .tc main_arg2) := by
  rw [tail_split, Cert.Lib.HostFold.after_append, Cert.Lib.HostFold.after_append, c_arg2, b_arg2, a_arg2]
theorem tail_arg3 (W : Valuation τ sig (Elt F)) : after opsTail W (Proc.devRef .tc main_arg3) = W (Proc.devRef .tc main_arg3) := by
  rw [tail_split, Cert.Lib.HostFold.after_append, Cert.Lib.HostFold.after_append, c_arg3, b_arg3, a_arg3]
theorem tail_arg4 (W : Valuation τ sig (Elt F)) : after opsTail W (Proc.devRef .tc main_arg4) = W (Proc.devRef .tc main_arg4) := by
  rw [tail_split, Cert.Lib.HostFold.after_append, Cert.Lib.HostFold.after_append, c_arg4, b_arg4, a_arg4]
theorem tail_arg5 (W : Valuation τ sig (Elt F)) : after opsTail W (Proc.devRef .tc main_arg5) = W (Proc.devRef .tc main_arg5) := by
  rw [tail_split, Cert.Lib.HostFold.after_append, Cert.Lib.HostFold.after_append, c_arg5, b_arg5, a_arg5]
theorem tail_arg6 (W : Valuation τ sig (Elt F)) : after opsTail W (Proc.devRef .tc main_arg6) = W (Proc.devRef .tc main_arg6) := by
  rw [tail_split, Cert.Lib.HostFold.after_append, Cert.Lib.HostFold.after_append, c_arg6, b_arg6, a_arg6]

/-! ## The fold at the results and at the arguments -/

/-- The patch logits after the run. -/
theorem v10_eq (V : Valuation τ sig (Elt F)) :
    after ops V (Proc.devRef .tc main_v10) = patch (V (Proc.devRef .tc main_arg1)) (V (Proc.devRef .tc main_arg0)) (V (Proc.devRef .tc main_arg3)) (V (Proc.devRef .tc main_arg4)) (V (Proc.devRef .tc main_arg5)) (V (Proc.devRef .tc main_arg6)) := by
  rw [after_ops, tail_v10, head_v10]

/-- The per-bag sums after the run. -/
theorem v31_eq (V : Valuation τ sig (Elt F)) :
    after ops V (Proc.devRef .tc main_v31) = segsum (V (Proc.devRef .tc main_arg2)) (patch (V (Proc.devRef .tc main_arg1)) (V (Proc.devRef .tc main_arg0)) (V (Proc.devRef .tc main_arg3)) (V (Proc.devRef .tc main_arg4)) (V (Proc.devRef .tc main_arg5)) (V (Proc.devRef .tc main_arg6))) := by
  rw [after_ops, tail_v31, head_arg2, head_v10]

theorem arg0_eq (V : Valuation τ sig (Elt F)) : after ops V (Proc.devRef .tc main_arg0) = V (Proc.devRef .tc main_arg0) := by
  rw [after_ops, tail_arg0, head_arg0]
theorem arg1_eq (V : Valuation τ sig (Elt F)) : after ops V (Proc.devRef .tc main_arg1) = V (Proc.devRef .tc main_arg1) := by
  rw [after_ops, tail_arg1, head_arg1]
theorem arg2_eq (V : Valuation τ sig (Elt F)) : after ops V (Proc.devRef .tc main_arg2) = V (Proc.devRef .tc main_arg2) := by
  rw [after_ops, tail_arg2, head_arg2]
theorem arg3_eq (V : Valuation τ sig (Elt F)) : after ops V (Proc.devRef .tc main_arg3) = V (Proc.devRef .tc main_arg3) := by
  rw [after_ops, tail_arg3, head_arg3]
theorem arg4_eq (V : Valuation τ sig (Elt F)) : after ops V (Proc.devRef .tc main_arg4) = V (Proc.devRef .tc main_arg4) := by
  rw [after_ops, tail_arg4, head_arg4]
theorem arg5_eq (V : Valuation τ sig (Elt F)) : after ops V (Proc.devRef .tc main_arg5) = V (Proc.devRef .tc main_arg5) := by
  rw [after_ops, tail_arg5, head_arg5]
theorem arg6_eq (V : Valuation τ sig (Elt F)) : after ops V (Proc.devRef .tc main_arg6) = V (Proc.devRef .tc main_arg6) := by
  rw [after_ops, tail_arg6, head_arg6]

end Cert.ReferenceIdeal.RefRun

end
-- ==== Proof.RefValue.lean ====
/-
  The reference's patch logits are the specification's. The reference multiplies the features by the gate laid across
  the 1024 columns, applies the first linear layer as one whole matrix product, adds the bias laid down the rows, takes
  the maximum with zero, applies the second linear layer as one whole matrix product and adds its bias. Read at entry
  `(r, c)`, each matrix product is the sum over the contracted coordinate and each broadcast reads its one row or one
  column, so the entry is `logit r c` of the six arrays: the same function the kernel's blocks are cut from.
-/
import proofs.«108837_j82240033784369_2_alg».proof.Proof.RefRunValue
import proofs.«108837_j82240033784369_2_alg».proof.Proof.LibMatDot
import proofs.«108837_j82240033784369_2_alg».proof.Proof.GateMlp

noncomputable section

open scoped BigOperators

namespace Cert.ReferenceIdeal.RefValue

open Cert.ReferenceIdeal Cert.ReferenceIdeal.Gen Idealize.ShloMosaic Idealize.ShloMosaic.ValueIdx

/-- The gated features: the gate laid across the columns, times the features. -/
def gated (att : FVec Ideal S131072x1 .f32) (feat : FVec Ideal S131072x1024 .f32) : FVec Ideal S131072x1024 .f32 :=
  mulf (broadcastInDim S131072x1024 ![0, 1] bcast_S131072x1_S131072x1024_0_1 att) feat

/-- The hidden layer: first linear layer, bias, rectifier. -/
def hid (att : FVec Ideal S131072x1 .f32) (feat : FVec Ideal S131072x1024 .f32) (w1 : FVec Ideal S1024x512 .f32) (b1 : FVec Ideal S512 .f32) :
    FVec Ideal S131072x512 .f32 :=
  maximumf (addf (Host.dotGeneral dot_S131072x1024_S1024x512_S131072x512_1_0_0_1_n_n none (gated att feat) w1)
      (broadcastInDim S131072x512 ![0, 1] bcast_S1x512_S131072x512_0_1 (broadcastInDim S1x512 ![1] bcast_S512_S1x512_1 b1)))
    (broadcastInDim S131072x512 ![] bcast_S_S131072x512 (constant S_ .f32 0x00000000#32))

/-- The reference's term is the second linear layer and its bias over the hidden layer. -/
theorem patch_unfold (att : FVec Ideal S131072x1 .f32) (feat : FVec Ideal S131072x1024 .f32) (w1 : FVec Ideal S1024x512 .f32)
    (b1 : FVec Ideal S512 .f32) (w2 : FVec Ideal S512x2 .f32) (b2 : FVec Ideal S2 .f32) :
    Cert.ReferenceIdeal.RefRun.patch (F := Ideal) att feat w1 b1 w2 b2
      = addf (Host.dotGeneral dot_S131072x512_S512x2_S131072x2_1_0_0_1_n_n none (hid att feat w1 b1) w2)
          (broadcastInDim S131072x2 ![0, 1] bcast_S1x2_S131072x2_0_1 (broadcastInDim S1x2 ![1] bcast_S2_S1x2_1 b2)) := rfl

theorem gated_apply (att : FVec Ideal S131072x1 .f32) (feat : FVec Ideal S131072x1024 .f32) (r : Fin 131072) (k : Fin 1024) :
    gated att feat (ix2 r k) = att (ix2 r (0 : Fin 1)) * feat (ix2 r k) := by
  unfold gated
  rw [mulf_apply, Cert.Lib.MatDot.broadcastInDim_col_apply]

theorem hid_apply (att : FVec Ideal S131072x1 .f32) (feat : FVec Ideal S131072x1024 .f32) (w1 : FVec Ideal S1024x512 .f32) (b1 : FVec Ideal S512 .f32)
    (r : Fin 131072) (h : Fin 512) :
    hid att feat w1 b1 (ix2 r h) = Cert.GateMlp.hidden att feat w1 b1 r h := by
  unfold hid
  rw [maximumf_apply, addf_apply,
    show dot_S131072x1024_S1024x512_S131072x512_1_0_0_1_n_n
      = (⟨[1], [0], [0], [1], [], [], dot_S131072x1024_S1024x512_S131072x512_1_0_0_1_n_n_wf⟩ : DotDims ⟨2, ![131072, 1024]⟩ ⟨2, ![1024, 512]⟩ ⟨2, ![131072, 512]⟩) from rfl,
    Cert.Lib.MatDot.dotGeneral_apply, Cert.Lib.MatDot.broadcastInDim_vec_rows_apply, broadcastInDim_scalar_apply, constant_apply]
  unfold Cert.GateMlp.hidden
  simp only [gated_apply]

/-- THE REFERENCE'S PATCH LOGITS are the specification's logits of the six arrays. -/
theorem patch_eq (att : FVec Ideal S131072x1 .f32) (feat : FVec Ideal S131072x1024 .f32) (w1 : FVec Ideal S1024x512 .f32)
    (b1 : FVec Ideal S512 .f32) (w2 : FVec Ideal S512x2 .f32) (b2 : FVec Ideal S2 .f32) :
    Cert.ReferenceIdeal.RefRun.patch (F := Ideal) att feat w1 b1 w2 b2 = Cert.GateMlp.logits (n := 131072) att feat w1 b1 w2 b2 := by
  funext i
  obtain ⟨r, c, rfl⟩ : ∃ (r : Fin 131072) (c : Fin 2), i = ix2 r c := ⟨i 0, i 1, eq_ix2 i⟩
  rw [Cert.GateMlp.logits_apply, patch_unfold, addf_apply,
    show dot_S131072x512_S512x2_S131072x2_1_0_0_1_n_n
      = (⟨[1], [0], [0], [1], [], [], dot_S131072x512_S512x2_S131072x2_1_0_0_1_n_n_wf⟩ : DotDims ⟨2, ![131072, 512]⟩ ⟨2, ![512, 2]⟩ ⟨2, ![131072, 2]⟩) from rfl,
    Cert.Lib.MatDot.dotGeneral_apply, Cert.Lib.MatDot.broadcastInDim_vec_rows_apply]
  unfold Cert.GateMlp.logit
  simp only [hid_apply]

end Cert.ReferenceIdeal.RefValue

end
-- ==== Proof.TailSame.lean ====
/-
  Both programs end with the same host operations: the reference's per-bag sum and the kernel program's are one
  function of the bag sizes and the patch logits. The two are spelt over each program's own copies of the shapes and of
  the operations' dimension records, which hold the same data, so the equation is by unfolding the names.
-/
import proofs.«108837_j82240033784369_2_alg».proof.Proof.RefRunValue
import proofs.«108837_j82240033784369_2_alg».proof.Proof.KernelTail

noncomputable section

namespace Cert.Proof.TailSame

open Idealize.ShloMosaic

attribute [local irreducible] Host.reduce Host.reduceWindow Host.gather Host.scatter Host.scatterAdd concatenate extractStridedSlice in
/-- The reference's per-bag sum is the kernel program's. -/
theorem segsum_same {F : FTy → Type} [FloatOps F] (bag : (⟨Cert.KernelIdeal.S64, .i32⟩ : BufTy).Contents (Elt F))
    (pl : (⟨Cert.KernelIdeal.S131072x2, .f32⟩ : BufTy).Contents (Elt F)) :
    Cert.ReferenceIdeal.RefRun.segsum (F := F) bag pl = Cert.KernelIdeal.Hand.segsum (F := F) bag pl := rfl

end Cert.Proof.TailSame

end
-- ==== Proof.lean ====
/-
  The certificate's five claims for the gated two-layer perceptron with a per-bag sum.

  Both idealized programs compute, for every row `r` of the 131072 feature rows and each of the two classes `c`,
      logit r c = (∑ h, max ((∑ k, att r · feat r k · w1 k h) + b1 h) 0 · w2 h c) + b2 c,
  and then the same per-bag sum of those rows. The kernel computes the logits 2048 rows at a time: a row of the
  logits depends on the same row of the features and of the gate alone, so each grid point writes one block of the
  whole-array function and the 64 blocks tile the rows; at the ideal values its roundings to the short format are the
  identity and each of its matrix products into a zero accumulator is the plain sum over the contracted coordinate.
  The reference computes the same sums as two whole matrix products. Neither side regroups or redistributes anything,
  so no finiteness of the inputs is used. The per-bag sum is the same chain of host operations in both programs, applied to
  equal logits and the same bag sizes; it is never opened.

  The frames of the two kernel programs are the generated ones; the reference's frame is its run with the results
  dropped; the idealization rewrote no operation, so `preserves` is trivial.
-/
import proofs.«108837_j82240033784369_2_alg».proof.Defs
import proofs.«108837_j82240033784369_2_alg».proof.Proof.Gen.Kernel
import proofs.«108837_j82240033784369_2_alg».proof.Proof.Gen.Kernel.Frame
import proofs.«108837_j82240033784369_2_alg».proof.Proof.Gen.KernelIdeal
import proofs.«108837_j82240033784369_2_alg».proof.Proof.Gen.KernelIdeal.Frame
import proofs.«108837_j82240033784369_2_alg».proof.Proof.Gen.ReferenceIdeal
import proofs.«108837_j82240033784369_2_alg».proof.Proof.Gen.Pre_finite_inputs
import proofs.«108837_j82240033784369_2_alg».proof.Proof.KernelRun
import proofs.«108837_j82240033784369_2_alg».proof.Proof.RefRunValue
import proofs.«108837_j82240033784369_2_alg».proof.Proof.RefValue
import proofs.«108837_j82240033784369_2_alg».proof.Proof.TailSame
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, read at the seven arguments, none of which any operation writes. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _)⟩)
    (Cert.ReferenceIdeal.RefRun.run_main (F := Ideal) m ρ)

theorem preserves : Cert.preserves_Kernel_KernelIdeal := trivial

/-- Both programs end with the per-bag sums at `segsum` of the bag sizes and the logits, and the patch logits at the
    specification's logits of the arguments, which agree. -/
theorem algebraic : Cert.algebraic_KernelIdeal_ReferenceIdeal := by
  intro m ρ m' ρ' _ hagree
  refine ⟨fun c => Cert.KernelIdeal.Hand.segsum (F := Ideal) (m ((c.tc : Thread Cert.KernelIdeal.nD Cert.KernelIdeal.τ).loc Cert.KernelIdeal.main_arg2))
      (Cert.KernelIdeal.Hand.patchM m c), fun c => Cert.KernelIdeal.Hand.patchM m c, Cert.KernelIdeal.Hand.run m ρ, ?_⟩
  refine (θ_run Cert.ReferenceIdeal.defs _ _).mono (fun _ h c => ?_) (Cert.ReferenceIdeal.RefRun.run_main (F := Ideal) m' ρ')
  obtain ⟨a0, a1, a2, a3, a4, a5, a6⟩ := hagree c
  have hp : Cert.ReferenceIdeal.RefRun.patch (F := Ideal)
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
      = Cert.KernelIdeal.Hand.patchM m c := by
    rw [Cert.ReferenceIdeal.RefValue.patch_eq, a0, a1, a3, a4, a5, a6]
  refine ⟨?_, ?_, (h c Cert.ReferenceIdeal.main_arg0).trans (Cert.ReferenceIdeal.RefRun.arg0_eq _),
    (h c Cert.ReferenceIdeal.main_arg1).trans (Cert.ReferenceIdeal.RefRun.arg1_eq _),
    (h c Cert.ReferenceIdeal.main_arg2).trans (Cert.ReferenceIdeal.RefRun.arg2_eq _),
    (h c Cert.ReferenceIdeal.main_arg3).trans (Cert.ReferenceIdeal.RefRun.arg3_eq _),
    (h c Cert.ReferenceIdeal.main_arg4).trans (Cert.ReferenceIdeal.RefRun.arg4_eq _),
    (h c Cert.ReferenceIdeal.main_arg5).trans (Cert.ReferenceIdeal.RefRun.arg5_eq _),
    (h c Cert.ReferenceIdeal.main_arg6).trans (Cert.ReferenceIdeal.RefRun.arg6_eq _)⟩
  · refine (h c Cert.ReferenceIdeal.main_v31).trans ((Cert.ReferenceIdeal.RefRun.v31_eq _).trans ?_)
    refine (congrArg (Cert.ReferenceIdeal.RefRun.segsum (F := Ideal) _) hp).trans ?_
    refine (Cert.Proof.TailSame.segsum_same _ _).trans ?_
    exact congrArg (fun b => Cert.KernelIdeal.Hand.segsum (F := Ideal) b (Cert.KernelIdeal.Hand.patchM m c)) a2
  · exact (h c Cert.ReferenceIdeal.main_v10).trans ((Cert.ReferenceIdeal.RefRun.v10_eq _).trans hp)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
